-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 115
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000, .f32⟩
  | .hbm, ⟨57, _⟩ => ⟨S1700000, .f32⟩
  | .hbm, ⟨58, _⟩ => ⟨S100000x128, .f32⟩
  | .hbm, ⟨59, _⟩ => ⟨S_, .i32⟩
  | .hbm, ⟨60, _⟩ => ⟨S1700000, .i32⟩
  | .hbm, ⟨61, _⟩ => ⟨S1700000, .i1⟩
  | .hbm, ⟨62, _⟩ => ⟨S_, .i32⟩
  | .hbm, ⟨63, _⟩ => ⟨S1700000, .i32⟩
  | .hbm, ⟨64, _⟩ => ⟨S1700000, .i32⟩
  | .hbm, ⟨65, _⟩ => ⟨S1700000, .i32⟩
  | .hbm, ⟨66, _⟩ => ⟨S1700000x1, .i32⟩
  | .hbm, ⟨67, _⟩ => ⟨S1700000x128, .f32⟩
  | .hbm, ⟨68, _⟩ => ⟨S1700000x1, .f32⟩
  | .hbm, ⟨69, _⟩ => ⟨S1700000x128, .f32⟩
  | .hbm, ⟨70, _⟩ => ⟨S1700000x128, .f32⟩
  | .hbm, ⟨71, _⟩ => ⟨S_, .f32⟩
  | .hbm, ⟨72, _⟩ => ⟨S100000x128, .f32⟩
  | .hbm, ⟨73, _⟩ => ⟨S1700000x1, .i32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S_, .i32⟩
  | .hbm, ⟨79, _⟩ => ⟨S1700000, .i32⟩
  | .hbm, ⟨80, _⟩ => ⟨S1700000, .i1⟩
  | .hbm, ⟨81, _⟩ => ⟨S_, .i32⟩
  | .hbm, ⟨82, _⟩ => ⟨S1700000, .i32⟩
  | .hbm, ⟨83, _⟩ => ⟨S1700000, .i32⟩
  | .hbm, ⟨84, _⟩ => ⟨S1700000, .i32⟩
  | .hbm, ⟨85, _⟩ => ⟨S1700000x1, .i32⟩
  | .hbm, ⟨86, _⟩ => ⟨S1700000x128, .f32⟩
  | .hbm, ⟨87, _⟩ => ⟨S1700000x1, .f32⟩
  | .hbm, ⟨88, _⟩ => ⟨S1700000x128, .f32⟩
  | .hbm, ⟨89, _⟩ => ⟨S1700000x128, .f32⟩
  | .hbm, ⟨90, _⟩ => ⟨S_, .f32⟩
  | .hbm, ⟨91, _⟩ => ⟨S100000x128, .f32⟩
  | .hbm, ⟨92, _⟩ => ⟨S1700000x1, .i32⟩
  | .hbm, ⟨93, _⟩ => ⟨S100000x128, .f32⟩
  | .hbm, ⟨94, _⟩ => ⟨S1x128, .f32⟩
  | .hbm, ⟨95, _⟩ => ⟨S100000x128, .f32⟩
  | .hbm, ⟨96, _⟩ => ⟨S100000x64, .f32⟩
  | .hbm, ⟨97, _⟩ => ⟨S_, .i32⟩
  | .hbm, ⟨98, _⟩ => ⟨S1700000, .i32⟩
  | .hbm, ⟨99, _⟩ => ⟨S1700000, .i1⟩
  | .hbm, ⟨100, _⟩ => ⟨S_, .i32⟩
  | .hbm, ⟨101, _⟩ => ⟨S1700000, .i32⟩
  | .hbm, ⟨102, _⟩ => ⟨S1700000, .i32⟩
  | .hbm, ⟨103, _⟩ => ⟨S1700000, .i32⟩
  | .hbm, ⟨104, _⟩ => ⟨S1700000x1, .i32⟩
  | .hbm, ⟨105, _⟩ => ⟨S1700000x64, .f32⟩
  | .hbm, ⟨106, _⟩ => ⟨S1700000x1, .f32⟩
  | .hbm, ⟨107, _⟩ => ⟨S1700000x64, .f32⟩
  | .hbm, ⟨108, _⟩ => ⟨S1700000x64, .f32⟩
  | .hbm, ⟨109, _⟩ => ⟨S_, .f32⟩
  | .hbm, ⟨110, _⟩ => ⟨S100000x64, .f32⟩
  | .hbm, ⟨111, _⟩ => ⟨S1700000x1, .i32⟩
  | .hbm, ⟨112, _⟩ => ⟨S100000x64, .f32⟩
  | .hbm, ⟨113, _⟩ => ⟨S1x64, .f32⟩
  | .hbm, ⟨114, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_v53 : Ref sig .tc := ⟨.hbm, 80, rfl⟩
abbrev main_c_12 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_13 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_14 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_16 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v66) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v67) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v80) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v81) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v82) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 124
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000, .f32⟩
  | .hbm, ⟨57, _⟩ => ⟨S1700000, .f32⟩
  | .hbm, ⟨58, _⟩ => ⟨S100000x128, .f32⟩
  | .hbm, ⟨59, _⟩ => ⟨S_, .i32⟩
  | .hbm, ⟨60, _⟩ => ⟨S1700000, .i32⟩
  | .hbm, ⟨61, _⟩ => ⟨S1700000, .i1⟩
  | .hbm, ⟨62, _⟩ => ⟨S_, .i32⟩
  | .hbm, ⟨63, _⟩ => ⟨S1700000, .i32⟩
  | .hbm, ⟨64, _⟩ => ⟨S1700000, .i32⟩
  | .hbm, ⟨65, _⟩ => ⟨S1700000, .i32⟩
  | .hbm, ⟨66, _⟩ => ⟨S1700000x1, .i32⟩
  | .hbm, ⟨67, _⟩ => ⟨S1700000x128, .f32⟩
  | .hbm, ⟨68, _⟩ => ⟨S1700000x1, .f32⟩
  | .hbm, ⟨69, _⟩ => ⟨S1700000x128, .f32⟩
  | .hbm, ⟨70, _⟩ => ⟨S1700000x128, .f32⟩
  | .hbm, ⟨71, _⟩ => ⟨S_, .f32⟩
  | .hbm, ⟨72, _⟩ => ⟨S100000x128, .f32⟩
  | .hbm, ⟨73, _⟩ => ⟨S1700000x1, .i32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000x128, .f32⟩
  | .hbm, ⟨91, _⟩ => ⟨S1700000x1, .f32⟩
  | .hbm, ⟨92, _⟩ => ⟨S1700000x128, .f32⟩
  | .hbm, ⟨93, _⟩ => ⟨S1700000x128, .f32⟩
  | .hbm, ⟨94, _⟩ => ⟨S_, .f32⟩
  | .hbm, ⟨95, _⟩ => ⟨S100000x128, .f32⟩
  | .hbm, ⟨96, _⟩ => ⟨S1700000x1, .i32⟩
  | .hbm, ⟨97, _⟩ => ⟨S100000x128, .f32⟩
  | .hbm, ⟨98, _⟩ => ⟨S1x128, .f32⟩
  | .hbm, ⟨99, _⟩ => ⟨S100000x128, .f32⟩
  | .hbm, ⟨100, _⟩ => ⟨S100000x128, .f32⟩
  | .hbm, ⟨101, _⟩ => ⟨S_, .f32⟩
  | .hbm, ⟨102, _⟩ => ⟨S100000x128, .f32⟩
  | .hbm, ⟨103, _⟩ => ⟨S100000x128, .f32⟩
  | .hbm, ⟨104, _⟩ => ⟨S100000x64, .f32⟩
  | .hbm, ⟨105, _⟩ => ⟨S_, .i32⟩
  | .hbm, ⟨106, _⟩ => ⟨S1700000, .i32⟩
  | .hbm, ⟨107, _⟩ => ⟨S1700000, .i1⟩
  | .hbm, ⟨108, _⟩ => ⟨S_, .i32⟩
  | .hbm, ⟨109, _⟩ => ⟨S1700000, .i32⟩
  | .hbm, ⟨110, _⟩ => ⟨S1700000, .i32⟩
  | .hbm, ⟨111, _⟩ => ⟨S1700000, .i32⟩
  | .hbm, ⟨112, _⟩ => ⟨S1700000x1, .i32⟩
  | .hbm, ⟨113, _⟩ => ⟨S1700000x64, .f32⟩
  | .hbm, ⟨114, _⟩ => ⟨S1700000x1, .f32⟩
  | .hbm, ⟨115, _⟩ => ⟨S1700000x64, .f32⟩
  | .hbm, ⟨116, _⟩ => ⟨S1700000x64, .f32⟩
  | .hbm, ⟨117, _⟩ => ⟨S_, .f32⟩
  | .hbm, ⟨118, _⟩ => ⟨S100000x64, .f32⟩
  | .hbm, ⟨119, _⟩ => ⟨S1700000x1, .i32⟩
  | .hbm, ⟨120, _⟩ => ⟨S100000x64, .f32⟩
  | .hbm, ⟨121, _⟩ => ⟨S1x64, .f32⟩
  | .hbm, ⟨122, _⟩ => ⟨S100000x64, .f32⟩
  | .hbm, ⟨123, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call2_cst : Ref sig .tc := ⟨.hbm, 78, rfl⟩
abbrev main_call2_v0 : Ref sig .tc := ⟨.hbm, 79, rfl⟩
abbrev main_v52 : Ref sig .tc := ⟨.hbm, 80, rfl⟩
abbrev main_v53 : Ref sig .tc := ⟨.hbm, 81, rfl⟩
abbrev main_c_11 : Ref sig .tc := ⟨.hbm, 82, rfl⟩
abbrev main_v54 : Ref sig .tc := ⟨.hbm, 83, rfl⟩
abbrev main_v55 : Ref sig .tc := ⟨.hbm, 84, rfl⟩
abbrev main_c_12 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_13 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_call3_cst : Ref sig .tc := ⟨.hbm, 101, rfl⟩
abbrev main_call3_v0 : Ref sig .tc := ⟨.hbm, 102, rfl⟩
abbrev main_v70 : Ref sig .tc := ⟨.hbm, 103, rfl⟩
abbrev main_v71 : Ref sig .tc := ⟨.hbm, 104, rfl⟩
abbrev main_c_14 : Ref sig .tc := ⟨.hbm, 105, rfl⟩
abbrev main_v72 : Ref sig .tc := ⟨.hbm, 106, rfl⟩
abbrev main_v73 : Ref sig .tc := ⟨.hbm, 107, rfl⟩
abbrev main_c_15 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_16 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run, read at its result.

  The program is six pipelined regions among stretches of host operations. Its generated frame names the contents of
  every buffer at each boundary between two segments as a fold from the launch memory: a host stretch applies its
  operations, a region replaces each of its arrays by what its write-backs leave. The same launch over the same
  segments, read at the result buffer as well as at the arguments, says: every weakly fair execution terminates without
  a fault, the result holds the last boundary's contents at its buffer, and the arguments are as launched.
-/
import proofs.«113409_j84954453115003_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and every argument array as launched. -/
theorem run : θ_run defs (onTc (τ := τ) (main (F := F))) ⟨m, fun _ => 0, ρ⟩ (fun r => ∀ c : Dev nD,
      r.2.mem ((c.tc : Thread nD τ).loc main_v82) = W14 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v82 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c)⟩)

end Cert.KernelIdeal.RunValue

end
-- ==== Proof.KernelStages.lean ====
/-
  The graph network as stages of whole-array operations.

  From the edge list and the edge weights: the source and target index of every edge with one self-loop per node
  appended, the weights with a one appended per self-loop, each node's weighted in-degree (a scatter-add of the weights
  at the targets), its inverse square root where the degree is positive and zero elsewhere, and each edge's normalising
  factor (the two end nodes' inverse square roots times the weight). A layer multiplies the node features by a weight
  matrix, gathers the product's rows at the edges' sources, scales each by its edge's factor, scatter-adds them at the
  targets, and adds the bias row; the first two layers end with the maximum with zero. Each stage is the operations'
  own term; nothing is computed here.
-/
import proofs.«113409_j84954453115003_1_alg».proof.Proof.Gen.KernelIdeal
import Idealize.ShloMosaic.PureOps.Ideal

noncomputable section

namespace Cert.KernelIdeal.Stages

open Cert.KernelIdeal Cert.KernelIdeal.Gen Idealize.ShloMosaic Idealize.ShloMosaic.TcCoe

variable {F : FTy → Type} [FloatOps F]

/-- The source of every edge, then of every self-loop (node n's is n). -/
def rowIdx (ei : IVec S2x1600000 32) : IVec S1700000 32 :=
  (concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0)
/-- The target of every edge, then of every self-loop. -/
def colIdx (ei : IVec S2x1600000 32) : IVec S1700000 32 :=
  (concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0)
/-- The weight of every edge, then a one per self-loop. -/
def edgeW (ew : FVec F S1600000 .f32) : FVec F S1700000 .f32 :=
  (concatenate S1700000 0 [⟨S1600000, ew⟩, ⟨S100000, (broadcastInDim S100000 ![] bcast_S_S100000 (constant S_ .f32 0x3F800000#32))⟩] concatenates_S1600000_S100000_S1700000_d0)
/-- Each node's weighted in-degree: the weights scatter-added at the targets, from zero. -/
def degree (col : IVec S1700000 32) (w : FVec F S1700000 .f32) : FVec F S100000 .f32 :=
  (Host.scatterAdd scatter_S100000_S1700000x1_S1700000_n_0_0_1 (broadcastInDim S100000 ![] bcast_S_S100000 (constant S_ .f32 0x00000000#32)) (broadcastInDim S1700000x1 ![0] bcast_S1700000_S1700000x1_0 col) w)
/-- The inverse square root of a positive degree (taken of one where the degree is not positive), zero elsewhere. -/
def invSqrtDeg (deg : FVec F S100000 .f32) : FVec F S100000 .f32 :=
  (select (cmpf .ogt deg (broadcastInDim S100000 ![] bcast_S_S100000 (constant S_ .f32 0x00000000#32))) (Host.rsqrt (select (cmpf .ogt deg (broadcastInDim S100000 ![] bcast_S_S100000 (constant S_ .f32 0x00000000#32))) deg (broadcastInDim S100000 ![] bcast_S_S100000 (id (constant S_ .f32 0x3F800000#32))))) (broadcastInDim S100000 ![] bcast_S_S100000 (id (constant S_ .f32 0x00000000#32))))
/-- A node index as a gather reads it: a negative one moved up by the number of nodes, laid out as a column. -/
def wrapIdx (x : IVec S1700000 32) : IVec S1700000x1 32 :=
  (broadcastInDim S1700000x1 ![0] bcast_S1700000_S1700000x1_0 (select (cmpi .slt x (broadcastInDim S1700000 ![] bcast_S_S1700000 (constantI S_ 32 0#32))) (addi x (broadcastInDim S1700000 ![] bcast_S_S1700000 (constantI S_ 32 100000#32))) x))
/-- Each edge's normalising factor: its source's inverse square root, times its weight, times its target's. -/
def edgeNorm (dinv : FVec F S100000 .f32) (row col : IVec S1700000 32) (w : FVec F S1700000 .f32) : FVec F S1700000 .f32 :=
  (mulf (mulf (Host.gather gather_S100000_S1700000x1_S1700000_n_0_n_n_0_1_1 dinv (wrapIdx row)) w) (Host.gather gather_S100000_S1700000x1_S1700000_n_0_n_n_0_1_1 dinv (wrapIdx col)))
/-- Aggregation of 128 features: rows of h gathered at the sources, scaled by the factors, scatter-added at the targets. -/
def aggregate128 (h : FVec F S100000x128 .f32) (row col : IVec S1700000 32) (nrm : FVec F S1700000 .f32) : FVec F S100000x128 .f32 :=
  (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 col) (mulf (Host.gather gather_S100000x128_S1700000x1_S1700000x128_1_0_n_n_0_1_1128 h (wrapIdx row)) (broadcastInDim S1700000x128 ![0, 1] bcast_S1700000x1_S1700000x128_0_1 (broadcastInDim S1700000x1 ![0] bcast_S1700000_S1700000x1_0 nrm))))
/-- The same for 64 features. -/
def aggregate64 (h : FVec F S100000x64 .f32) (row col : IVec S1700000 32) (nrm : FVec F S1700000 .f32) : FVec F S100000x64 .f32 :=
  (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 col) (mulf (Host.gather gather_S100000x64_S1700000x1_S1700000x64_1_0_n_n_0_1_164 h (wrapIdx row)) (broadcastInDim S1700000x64 ![0, 1] bcast_S1700000x1_S1700000x64_0_1 (broadcastInDim S1700000x1 ![0] bcast_S1700000_S1700000x1_0 nrm))))

end Cert.KernelIdeal.Stages

end
-- ==== Proof.LibMatmulEntry.lean ====
/-
  A `tpu.matmul` of two rank-2 operands into the zero accumulator, read at ONE ENTRY of its result at the ideal values,
  as a plain sum over `Fin K` of the two operands' entries — for the two layouts a dense layer meets:

  * `matmul_rows_cols`: `[M, K] × [K, N] → [M, N]`, contracting the left operand's axis 1 with the right operand's
    axis 0 (rows times columns): entry `(p, q)` is `Σ_k a[p, k] · b[k, q]`;
  * `matmul_cols_rows`: `[K, N] × [M, K] → [N, M]`, contracting the left operand's axis 0 with the right operand's
    axis 1 (both operands transposed): entry `(q, p)` is `Σ_k a[k, q] · b[p, k]`.

  Each is stated for ANY dimension-number record with those six lists, whatever its name and well-formedness proof, and
  for any extents and operand formats. The contraction's own index type is re-indexed to `Fin K` through its one
  coordinate; on an axis that is not contracted an operand's index is the result index's coordinate, which is what the
  two small lemmas on `DotDims.lhsIdx` / `rhsIdx` say.
-/
import Idealize.ShloMosaic.PureOps.Ideal.Laws
import Idealize.ShloMosaic.Lib.ValueIdx

noncomputable section

open scoped BigOperators

namespace Idealize.ShloMosaic.DotDims

variable {sl sr so : Shape} (d : DotDims sl sr so)

/-- On a left axis that is kept (not batch, not contracted) the left operand's index is the result index's coordinate at
    that axis's position among the result's axes. -/
theorem lhsIdx_val_of_kept {a : Fin sl.rank} (hb : a ∉ d.lhsBatch) (hn : a ∈ d.lhsNonContracting) (j : so.Idx)
    (k : d.contr.Idx) (p : Nat) (hp : p < so.rank) (hpe : d.lhsBatch.length + d.lhsNonContracting.idxOf a = p) :
    (d.lhsIdx j k a).val = (j ⟨p, hp⟩).val := by
  subst hpe
  unfold lhsIdx
  rw [dif_neg hb, dif_pos hn]
  rfl

/-- The same for the right operand, whose kept axes come after the left operand's among the result's. -/
theorem rhsIdx_val_of_kept {a : Fin sr.rank} (hb : a ∉ d.rhsBatch) (hn : a ∈ d.rhsNonContracting) (j : so.Idx)
    (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold rhsIdx
  rw [dif_neg hb, dif_pos hn]
  rfl

end Idealize.ShloMosaic.DotDims

namespace Idealize.ShloMosaic.Ideal

open Idealize.ShloMosaic.ValueIdx

/-- Rows times columns: `[M, K] × [K, N] → [M, N]` into the zero accumulator, at entry `(p, q)`. -/
theorem matmul_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (a : FVec Ideal ⟨2, ![M, K]⟩ φ₁) (b : FVec Ideal ⟨2, ![K, N]⟩ φ₂)
    (p : Fin M) (q : Fin N) :
    FloatOps.matmul D prec a b (constant ⟨2, ![M, N]⟩ .f32 0x00000000#32) (ix2 p q)
      = ∑ k : Fin K, a (ix2 p k) * b (ix2 k q) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 p q) ((contrEquiv1 D K hr hs).symm k) = ix2 p k := by
    funext ax
    refine Fin.ext ?_
    match ax with
    | ⟨0, _⟩ =>
      exact D.lhsIdx_val_of_kept (a := (0 : Fin 2)) (by rw [hlb]; exact List.not_mem_nil) (by rw [hln]; exact List.mem_singleton.mpr rfl)
        _ _ 0 Nat.zero_lt_two (by rw [hlb, hln]; rfl)
    | ⟨1, _⟩ =>
      exact (D.lhsIdx_val_of_single (cl := (1 : Fin 2)) hlc _ _).trans (contrEquiv1_symm_val D K hr hs k)
  have eb : D.rhsIdx (ix2 p q) ((contrEquiv1 D K hr hs).symm k) = ix2 k q := by
    funext ax
    refine Fin.ext ?_
    match ax with
    | ⟨0, _⟩ =>
      exact (D.rhsIdx_val_of_single (cr := (0 : Fin 2)) hrc _ _).trans (contrEquiv1_symm_val D K hr hs k)
    | ⟨1, _⟩ =>
      exact D.rhsIdx_val_of_kept (a := (1 : Fin 2)) (by rw [hrb]; exact List.not_mem_nil) (by rw [hrn]; exact List.mem_singleton.mpr rfl)
        _ _ 1 Nat.one_lt_two (by rw [hlb, hln, hrn]; rfl)
  rw [ea, eb]

/-- Both operands transposed: `[K, N] × [M, K] → [N, M]` into the zero accumulator, at entry `(q, p)`. -/
theorem matmul_cols_rows {M K N : Nat} {φ₁ φ₂ : FTy} (D : DotDims ⟨2, ![K, N]⟩ ⟨2, ![M, K]⟩ ⟨2, ![N, M]⟩)
    (hlb : D.lhsBatch = []) (hln : D.lhsNonContracting = [1]) (hlc : D.lhsContracting = [0])
    (hrb : D.rhsBatch = []) (hrn : D.rhsNonContracting = [0]) (hrc : D.rhsContracting = [1])
    (prec : Option ContractPrecision) (a : FVec Ideal ⟨2, ![K, N]⟩ φ₁) (b : FVec Ideal ⟨2, ![M, K]⟩ φ₂)
    (q : Fin N) (p : Fin M) :
    FloatOps.matmul D prec a b (constant ⟨2, ![N, M]⟩ .f32 0x00000000#32) (ix2 q p)
      = ∑ k : Fin K, a (ix2 k q) * b (ix2 p k) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 q p) ((contrEquiv1 D K hr hs).symm k) = ix2 k q := by
    funext ax
    refine Fin.ext ?_
    match ax with
    | ⟨0, _⟩ =>
      exact (D.lhsIdx_val_of_single (cl := (0 : Fin 2)) hlc _ _).trans (contrEquiv1_symm_val D K hr hs k)
    | ⟨1, _⟩ =>
      exact D.lhsIdx_val_of_kept (a := (1 : Fin 2)) (by rw [hlb]; exact List.not_mem_nil) (by rw [hln]; exact List.mem_singleton.mpr rfl)
        _ _ 0 Nat.zero_lt_two (by rw [hlb, hln]; rfl)
  have eb : D.rhsIdx (ix2 q p) ((contrEquiv1 D K hr hs).symm k) = ix2 p k := by
    funext ax
    refine Fin.ext ?_
    match ax with
    | ⟨0, _⟩ =>
      exact D.rhsIdx_val_of_kept (a := (0 : Fin 2)) (by rw [hrb]; exact List.not_mem_nil) (by rw [hrn]; exact List.mem_singleton.mpr rfl)
        _ _ 1 Nat.one_lt_two (by rw [hlb, hln, hrn]; rfl)
    | ⟨1, _⟩ =>
      exact (D.rhsIdx_val_of_single (cr := (1 : Fin 2)) hrc _ _).trans (contrEquiv1_symm_val D K hr hs k)
  rw [ea, eb]

end Idealize.ShloMosaic.Ideal

end
-- ==== Proof.Region0.lean ====
/-
  Region 0: a dense product, tiled by rows.

  The grid has twenty points. At point t the body loads rows 5000·t … 5000·t + 4999 of the left operand (all 128
  columns) and the whole [128, 128] right operand, and stores their matrix product, accumulated in f32 from zero, as rows
  5000·t … 5000·t + 4999 of the result. At the ideal values a change of float format is the identity and the product
  into the zero accumulator is, at entry (p, q), the sum over k of left[p, k] · right[k, q]. A row of the result depends
  only on the same row of the left operand, so what point t writes back is block t of ONE function of the whole arrays:
  entry (r, q) of the result is the sum over k of left[r, k] · right[k, q]. The twenty blocks tile the result's rows,
  so the array ends holding that function everywhere.
-/
import proofs.«113409_j84954453115003_1_alg».proof.Proof.Gen.KernelIdeal.Frame
import proofs.«113409_j84954453115003_1_alg».proof.Proof.LibMatmulEntry
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

theorem zero_offsets : (![0, 0] : Fin 2 → Nat) = fun _ => 0 := funext fun a => by fin_cases a <;> rfl

/-- Rows times columns over the whole arrays: entry (r, q) is the sum over k of left[r, k] · right[k, q]. -/
def rowsTimesCols (X : FVec Ideal S100000x128 .f32) (Wt : FVec Ideal S128x128 .f32) : FVec Ideal S100000x128 .f32 :=
  fun i => ∑ k : Fin 128, X (ix2 (i 0) k) * Wt (ix2 k (i 1))

/-- The body's stored value at entry (p, q) of its block: the two changes of format are the identity at the ideal
    values, and the product into the zero accumulator is the sum over the contracted axis. -/
theorem stored_entry (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  exact Ideal.matmul_rows_cols dot_S5000x128_S128x128_S5000x128_1_0_0_1_n_n rfl rfl rfl rfl rfl rfl none _ _ p q

/-- The three windows' block indices at every point: the left operand's and the result's blocks move down the rows
    with the point, on the whole column range; the right operand's one block never moves. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The sum over k of the operands' blocks at point t, at (p, k) and (k, q), is the whole-array product at the array
    index of entry (p, q) of the result's block: a block's coordinate is the block index times the block size plus the
    coordinate inside the block, and the three windows' indices agree on the row axis and are zero elsewhere. -/
theorem block_entry (X : FVec Ideal S100000x128 .f32) (Wt : FVec Ideal S128x128 .f32) (t : Fin cfg0.N)
    (p : Fin 5000) (q : Fin 128) :
    ∑ k : Fin 128, X (((cfg0.win 0).blk t).view.emb (ix2 p k)) * Wt (((cfg0.win 1).blk t).view.emb (ix2 k q))
      = rowsTimesCols X Wt (((cfg0.win 2).blk t).view.emb (ix2 p q)) := by
  obtain ⟨e0, e1, e2, e3, e4, e5⟩ := block_indices t
  unfold rowsTimesCols
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [h0, h1]
  rfl

variable (V : (c : Dev nD) → (b : Ref sig .tc) → Buf (Elt Ideal) ((c : Thread nD τ).loc b))

/-- What point t writes back is block t of the whole-array product of the arrays as the region finds them. -/
theorem flushed_eq (c : Dev nD) (t : Fin cfg0.N) :
    (dat0 V c).flushed 2 t = ((cfg0.win 2).blk t).view.read (Elt Ideal)
      (rowsTimesCols (V c (Pipeline.arrRef spec0 0)) (V c (Pipeline.arrRef spec0 1))) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  funext j
  obtain ⟨p, q, rfl⟩ : ∃ (p : Fin 5000) (q : Fin 128), j = ix2 p q := ⟨j 0, j 1, eq_ix2 j⟩
  refine (stored_entry _ _ p q).trans ?_
  exact block_entry (V c (Pipeline.arrRef spec0 0)) (V c (Pipeline.arrRef spec0 1)) t p q

/-- An index of the result is in point t's block iff each coordinate is in the block's range on its axis. -/
theorem mem_block (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v35).slice (win0_2.rect t)).set ↔ _
  rw [View.set_slice_whole, Rect.mem_set_unit]
  exact Iff.rfl

/-- Row r of the result lies in the block of point r / 5000: the twenty blocks tile the rows. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨e0, e1, e2, e3, e4, e5⟩ := block_indices ⟨(i 0).val / 5000, ht⟩
  refine ⟨⟨(i 0).val / 5000, ht⟩, flush0_2 _, ?_⟩
  rw [mem_block]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    rw [e5]
    omega

/-- THE RESULT ARRAY after the region: rows times columns of the two operand arrays as the region finds them. -/
theorem result (c : Dev nD) :
    (dat0 V c).arrAt 2 cfg0.N = rowsTimesCols (V c (Pipeline.arrRef spec0 0)) (V c (Pipeline.arrRef spec0 1)) :=
  (dat0 V c).arrAt_eq_of_cover 2 _ (fun t _ => flushed_eq V c t) (cover)

end Cert.KernelIdeal.Region0

end
-- ==== Proof.Region1.lean ====
/-
  Region 1: a bias row added to every row, then the maximum with zero, tiled by rows.

  The grid has twenty points. At point t the body loads rows 5000·t … 5000·t + 4999 of the [100000, 128] operand and the
  whole [1, 128] bias row, broadcasts the row down the block, adds, takes the maximum with the zero word and stores the block. Entry (r, q)
  of the result depends only on entry (r, q) of the operand and entry (0, q) of the row, so what point t writes back is
  block t of ONE function of the whole arrays, and the twenty blocks tile the result's rows.
-/
import proofs.«113409_j84954453115003_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen

theorem zero_offsets : (![0, 0] : Fin 2 → Nat) = fun _ => 0 := funext fun a => by fin_cases a <;> rfl

/-- The row added to every row of the array, then the maximum with the zero word: entry (r, q) is max (A[r, q] + B[0, q]) 0. -/
def addRow (A : FVec Ideal S100000x128 .f32) (B : FVec Ideal S1x128 .f32) : FVec Ideal S100000x128 .f32 :=
  fun i => max (A i + B (ix2 (0 : Fin 1) (i 1))) (Ideal.ofBits .f32 0x00000000#32)

/-- The body's stored value at entry (p, q) of its block: the two casts to the same shape are the identity, the
    broadcast row reads the bias at (0, q). -/
theorem stored_entry (x0 : Vec Ideal S5000x128 .f32) (x1 : Vec Ideal S1x128 .f32) (p : Fin 5000) (q : Fin 128) :
    k1_pay1 (F := Ideal) x0 x1 (ix2 p q)
      = max (x0 (ix2 p q) + x1 (ix2 (0 : Fin 1) q)) (Ideal.ofBits .f32 0x00000000#32) := by
  unfold k1_pay1
  simp only [shapeCast_self]
  show max (x0 (ix2 p q) + broadcastTo S5000x128 x1 broadcasts_S1x128_S5000x128 (ix2 p q)) _ = _
  rw [broadcastTo_1b_ab_apply]
  rfl

/-- The three windows' block indices at every point: the operand's and the result's blocks move down the rows with
    the point; the bias row's one block never moves. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The operands' blocks at point t, read at (p, q) and (0, q), give the whole-array function at the array index of
    entry (p, q) of the result's block: a block's coordinate is the block index times the block size plus the coordinate
    inside the block, and the windows' indices agree on the row axis and are zero elsewhere. -/
theorem block_entry (A : FVec Ideal S100000x128 .f32) (B : FVec Ideal S1x128 .f32) (t : Fin cfg1.N)
    (p : Fin 5000) (q : Fin 128) :
    max (A (((cfg1.win 0).blk t).view.emb (ix2 p q)) + B (((cfg1.win 1).blk t).view.emb (ix2 (0 : Fin 1) q))) (Ideal.ofBits .f32 0x00000000#32)
      = addRow A B (((cfg1.win 2).blk t).view.emb (ix2 p q)) := by
  obtain ⟨e0, e1, e2, e3, e4, e5⟩ := block_indices t
  unfold addRow
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have h1 : ((cfg1.win 1).blk t).view.emb (ix2 (0 : Fin 1) q) = ix2 (0 : Fin 1) ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [h0, h1]
  rfl

variable (V : (c : Dev nD) → (b : Ref sig .tc) → Buf (Elt Ideal) ((c : Thread nD τ).loc b))

/-- What point t writes back is block t of the whole-array function of the arrays as the region finds them. -/
theorem flushed_eq (c : Dev nD) (t : Fin cfg1.N) :
    (dat1 V c).flushed 2 t = ((cfg1.win 2).blk t).view.read (Elt Ideal)
      (addRow (V c (Pipeline.arrRef spec1 0)) (V c (Pipeline.arrRef spec1 1))) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S1x128) zero_offsets]
  funext j
  obtain ⟨p, q, rfl⟩ : ∃ (p : Fin 5000) (q : Fin 128), j = ix2 p q := ⟨j 0, j 1, eq_ix2 j⟩
  refine (stored_entry _ _ p q).trans ?_
  exact block_entry (V c (Pipeline.arrRef spec1 0)) (V c (Pipeline.arrRef spec1 1)) t p q

/-- An index of the result is in point t's block iff each coordinate is in the block's range on its axis. -/
theorem mem_block (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v50).slice (win1_2.rect t)).set ↔ _
  rw [View.set_slice_whole, Rect.mem_set_unit]
  exact Iff.rfl

/-- Row r of the result lies in the block of point r / 5000: the twenty blocks tile the rows. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨e0, e1, e2, e3, e4, e5⟩ := block_indices ⟨(i 0).val / 5000, ht⟩
  refine ⟨⟨(i 0).val / 5000, ht⟩, flush1_2 _, ?_⟩
  rw [mem_block]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win1_2.index ⟨(i 0).val / 5000, ht⟩ (1 : Fin 2) * 128 ≤ (i 1).val
      ∧ (i 1).val < win1_2.index ⟨(i 0).val / 5000, ht⟩ (1 : Fin 2) * 128 + 128
    rw [e5]
    omega

/-- THE RESULT ARRAY after the region: the row added to every row and the maximum with zero taken, of the two arrays as the region finds them. -/
theorem result (c : Dev nD) :
    (dat1 V c).arrAt 2 cfg1.N = addRow (V c (Pipeline.arrRef spec1 0)) (V c (Pipeline.arrRef spec1 1)) :=
  (dat1 V c).arrAt_eq_of_cover 2 _ (fun t _ => flushed_eq V c t) (cover)

end Cert.KernelIdeal.Region1

end
-- ==== Proof.Region2.lean ====
/-
  Region 2: a dense product, tiled by rows.

  The grid has twenty points. At point t the body loads rows 5000·t … 5000·t + 4999 of the left operand (all 128
  columns) and the whole [128, 128] right operand, and stores their matrix product, accumulated in f32 from zero, as rows
  5000·t … 5000·t + 4999 of the result. At the ideal values a change of float format is the identity and the product
  into the zero accumulator is, at entry (p, q), the sum over k of left[p, k] · right[k, q]. A row of the result depends
  only on the same row of the left operand, so what point t writes back is block t of ONE function of the whole arrays:
  entry (r, q) of the result is the sum over k of left[r, k] · right[k, q]. The twenty blocks tile the result's rows,
  so the array ends holding that function everywhere.
-/
import proofs.«113409_j84954453115003_1_alg».proof.Proof.Gen.KernelIdeal.Frame
import proofs.«113409_j84954453115003_1_alg».proof.Proof.LibMatmulEntry
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

theorem zero_offsets : (![0, 0] : Fin 2 → Nat) = fun _ => 0 := funext fun a => by fin_cases a <;> rfl

/-- Rows times columns over the whole arrays: entry (r, q) is the sum over k of left[r, k] · right[k, q]. -/
def rowsTimesCols (X : FVec Ideal S100000x128 .f32) (Wt : FVec Ideal S128x128 .f32) : FVec Ideal S100000x128 .f32 :=
  fun i => ∑ k : Fin 128, X (ix2 (i 0) k) * Wt (ix2 k (i 1))

/-- The body's stored value at entry (p, q) of its block: the two changes of format are the identity at the ideal
    values, and the product into the zero accumulator is the sum over the contracted axis. -/
theorem stored_entry (x0 : Vec Ideal S5000x128 .f32) (x1 : Vec Ideal S128x128 .f32) (p : Fin 5000) (q : Fin 128) :
    k2_pay1 (F := Ideal) x0 x1 (ix2 p q) = ∑ k : Fin 128, x0 (ix2 p k) * x1 (ix2 k q) := by
  unfold k2_pay1
  simp only [shapeCast_self]
  exact Ideal.matmul_rows_cols dot_S5000x128_S128x128_S5000x128_1_0_0_1_n_n rfl rfl rfl rfl rfl rfl none _ _ p q

/-- The three windows' block indices at every point: the left operand's and the result's blocks move down the rows
    with the point, on the whole column range; the right operand's one block never moves. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The sum over k of the operands' blocks at point t, at (p, k) and (k, q), is the whole-array product at the array
    index of entry (p, q) of the result's block: a block's coordinate is the block index times the block size plus the
    coordinate inside the block, and the three windows' indices agree on the row axis and are zero elsewhere. -/
theorem block_entry (X : FVec Ideal S100000x128 .f32) (Wt : FVec Ideal S128x128 .f32) (t : Fin cfg2.N)
    (p : Fin 5000) (q : Fin 128) :
    ∑ k : Fin 128, X (((cfg2.win 0).blk t).view.emb (ix2 p k)) * Wt (((cfg2.win 1).blk t).view.emb (ix2 k q))
      = rowsTimesCols X Wt (((cfg2.win 2).blk t).view.emb (ix2 p q)) := by
  obtain ⟨e0, e1, e2, e3, e4, e5⟩ := block_indices t
  unfold rowsTimesCols
  refine Finset.sum_congr rfl fun k _ => ?_
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have h1 : ((cfg2.win 1).blk t).view.emb (ix2 k q) = ix2 k ((((cfg2.win 2).blk t).view.emb (ix2 p q)) 1) := by
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  rw [h0, h1]
  rfl

variable (V : (c : Dev nD) → (b : Ref sig .tc) → Buf (Elt Ideal) ((c : Thread nD τ).loc b))

/-- What point t writes back is block t of the whole-array product of the arrays as the region finds them. -/
theorem flushed_eq (c : Dev nD) (t : Fin cfg2.N) :
    (dat2 V c).flushed 2 t = ((cfg2.win 2).blk t).view.read (Elt Ideal)
      (rowsTimesCols (V c (Pipeline.arrRef spec2 0)) (V c (Pipeline.arrRef spec2 1))) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x128) zero_offsets]
  funext j
  obtain ⟨p, q, rfl⟩ : ∃ (p : Fin 5000) (q : Fin 128), j = ix2 p q := ⟨j 0, j 1, eq_ix2 j⟩
  refine (stored_entry _ _ p q).trans ?_
  exact block_entry (V c (Pipeline.arrRef spec2 0)) (V c (Pipeline.arrRef spec2 1)) t p q

/-- An index of the result is in point t's block iff each coordinate is in the block's range on its axis. -/
theorem mem_block (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v51).slice (win2_2.rect t)).set ↔ _
  rw [View.set_slice_whole, Rect.mem_set_unit]
  exact Iff.rfl

/-- Row r of the result lies in the block of point r / 5000: the twenty blocks tile the rows. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  have ht : (i 0).val / 5000 < cfg2.N := by rw [hN]; omega
  obtain ⟨e0, e1, e2, e3, e4, e5⟩ := block_indices ⟨(i 0).val / 5000, ht⟩
  refine ⟨⟨(i 0).val / 5000, ht⟩, flush2_2 _, ?_⟩
  rw [mem_block]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win2_2.index ⟨(i 0).val / 5000, ht⟩ (1 : Fin 2) * 128 ≤ (i 1).val
      ∧ (i 1).val < win2_2.index ⟨(i 0).val / 5000, ht⟩ (1 : Fin 2) * 128 + 128
    rw [e5]
    omega

/-- THE RESULT ARRAY after the region: rows times columns of the two operand arrays as the region finds them. -/
theorem result (c : Dev nD) :
    (dat2 V c).arrAt 2 cfg2.N = rowsTimesCols (V c (Pipeline.arrRef spec2 0)) (V c (Pipeline.arrRef spec2 1)) :=
  (dat2 V c).arrAt_eq_of_cover 2 _ (fun t _ => flushed_eq V c t) (cover)

end Cert.KernelIdeal.Region2

end
-- ==== Proof.Region3.lean ====
/-
  Region 3: a bias row added to every row, then the maximum with zero, tiled by rows.

  The grid has twenty points. At point t the body loads rows 5000·t … 5000·t + 4999 of the [100000, 128] operand and the
  whole [1, 128] bias row, broadcasts the row down the block, adds, takes the maximum with the zero word and stores the block. Entry (r, q)
  of the result depends only on entry (r, q) of the operand and entry (0, q) of the row, so what point t writes back is
  block t of ONE function of the whole arrays, and the twenty blocks tile the result's rows.
-/
import proofs.«113409_j84954453115003_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Region3

open Idealize.ShloMosaic Idealize.ShloMosaic.TcCoe Idealize.SL.Sem Idealize.ShloMosaic.ValueIdx
open Idealize.ShloMosaic.Pipeline (Dat)
open Cert.KernelIdeal Cert.KernelIdeal.Gen

theorem zero_offsets : (![0, 0] : Fin 2 → Nat) = fun _ => 0 := funext fun a => by fin_cases a <;> rfl

/-- The row added to every row of the array, then the maximum with the zero word: entry (r, q) is max (A[r, q] + B[0, q]) 0. -/
def addRow (A : FVec Ideal S100000x128 .f32) (B : FVec Ideal S1x128 .f32) : FVec Ideal S100000x128 .f32 :=
  fun i => max (A i + B (ix2 (0 : Fin 1) (i 1))) (Ideal.ofBits .f32 0x00000000#32)

/-- The body's stored value at entry (p, q) of its block: the two casts to the same shape are the identity, the
    broadcast row reads the bias at (0, q). -/
theorem stored_entry (x0 : Vec Ideal S5000x128 .f32) (x1 : Vec Ideal S1x128 .f32) (p : Fin 5000) (q : Fin 128) :
    k3_pay1 (F := Ideal) x0 x1 (ix2 p q)
      = max (x0 (ix2 p q) + x1 (ix2 (0 : Fin 1) q)) (Ideal.ofBits .f32 0x00000000#32) := by
  unfold k3_pay1
  simp only [shapeCast_self]
  show max (x0 (ix2 p q) + broadcastTo S5000x128 x1 broadcasts_S1x128_S5000x128 (ix2 p q)) _ = _
  rw [broadcastTo_1b_ab_apply]
  rfl

/-- The three windows' block indices at every point: the operand's and the result's blocks move down the rows with
    the point; the bias row's one block never moves. -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The operands' blocks at point t, read at (p, q) and (0, q), give the whole-array function at the array index of
    entry (p, q) of the result's block: a block's coordinate is the block index times the block size plus the coordinate
    inside the block, and the windows' indices agree on the row axis and are zero elsewhere. -/
theorem block_entry (A : FVec Ideal S100000x128 .f32) (B : FVec Ideal S1x128 .f32) (t : Fin cfg3.N)
    (p : Fin 5000) (q : Fin 128) :
    max (A (((cfg3.win 0).blk t).view.emb (ix2 p q)) + B (((cfg3.win 1).blk t).view.emb (ix2 (0 : Fin 1) q))) (Ideal.ofBits .f32 0x00000000#32)
      = addRow A B (((cfg3.win 2).blk t).view.emb (ix2 p q)) := by
  obtain ⟨e0, e1, e2, e3, e4, e5⟩ := block_indices t
  unfold addRow
  have h0 : ((cfg3.win 0).blk t).view.emb (ix2 p q) = ((cfg3.win 2).blk t).view.emb (ix2 p q) := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 128 + 1 * q.val = win3_2.index t (1 : Fin 2) * 128 + 1 * q.val; omega
  have h1 : ((cfg3.win 1).blk t).view.emb (ix2 (0 : Fin 1) q) = ix2 (0 : Fin 1) ((((cfg3.win 2).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega
  rw [h0, h1]
  rfl

variable (V : (c : Dev nD) → (b : Ref sig .tc) → Buf (Elt Ideal) ((c : Thread nD τ).loc b))

/-- What point t writes back is block t of the whole-array function of the arrays as the region finds them. -/
theorem flushed_eq (c : Dev nD) (t : Fin cfg3.N) :
    (dat3 V c).flushed 2 t = ((cfg3.win 2).blk t).view.read (Elt Ideal)
      (addRow (V c (Pipeline.arrRef spec3 0)) (V c (Pipeline.arrRef spec3 1))) := by
  show (cfg3.win 2).cut (grid3.coords t) ((dat3 V c).after 2 t) = _
  rw [after3_2]
  unfold out3_2
  rw [View.canon_unit_zero zero_offsets]
  simp only [View.ld_unit_zero (S := S5000x128) zero_offsets, View.ld_unit_zero (S := S1x128) zero_offsets]
  funext j
  obtain ⟨p, q, rfl⟩ : ∃ (p : Fin 5000) (q : Fin 128), j = ix2 p q := ⟨j 0, j 1, eq_ix2 j⟩
  refine (stored_entry _ _ p q).trans ?_
  exact block_entry (V c (Pipeline.arrRef spec3 0)) (V c (Pipeline.arrRef spec3 1)) t p q

/-- An index of the result is in point t's block iff each coordinate is in the block's range on its axis. -/
theorem mem_block (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v66).slice (win3_2.rect t)).set ↔ _
  rw [View.set_slice_whole, Rect.mem_set_unit]
  exact Iff.rfl

/-- Row r of the result lies in the block of point r / 5000: the twenty blocks tile the rows. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  have ht : (i 0).val / 5000 < cfg3.N := by rw [hN]; omega
  obtain ⟨e0, e1, e2, e3, e4, e5⟩ := block_indices ⟨(i 0).val / 5000, ht⟩
  refine ⟨⟨(i 0).val / 5000, ht⟩, flush3_2 _, ?_⟩
  rw [mem_block]
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win3_2.index ⟨(i 0).val / 5000, ht⟩ (1 : Fin 2) * 128 ≤ (i 1).val
      ∧ (i 1).val < win3_2.index ⟨(i 0).val / 5000, ht⟩ (1 : Fin 2) * 128 + 128
    rw [e5]
    omega

/-- THE RESULT ARRAY after the region: the row added to every row and the maximum with zero taken, of the two arrays as the region finds them. -/
theorem result (c : Dev nD) :
    (dat3 V c).arrAt 2 cfg3.N = addRow (V c (Pipeline.arrRef spec3 0)) (V c (Pipeline.arrRef spec3 1)) :=
  (dat3 V c).arrAt_eq_of_cover 2 _ (fun t _ => flushed_eq V c t) (cover)

end Cert.KernelIdeal.Region3

end
-- ==== Proof.Region4.lean ====
/-
  Region 4: a dense product, tiled by rows.

  The grid has twenty points. At point t the body loads rows 5000·t … 5000·t + 4999 of the left operand (all 128
  columns) and the whole [128, 64] right operand, and stores their matrix product, accumulated in f32 from zero, as rows
  5000·t … 5000·t + 4999 of the result. At the ideal values a change of float format is the identity and the product
  into the zero accumulator is, at entry (p, q), the sum over k of left[p, k] · right[k, q]. A row of the result depends
  only on the same row of the left operand, so what point t writes back is block t of ONE function of the whole arrays:
  entry (r, q) of the result is the sum over k of left[r, k] · right[k, q]. The twenty blocks tile the result's rows,
  so the array ends holding that function everywhere.
-/
import proofs.«113409_j84954453115003_1_alg».proof.Proof.Gen.KernelIdeal.Frame
import proofs.«113409_j84954453115003_1_alg».proof.Proof.LibMatmulEntry
import Idealize.ShloMosaic.Lib.Pipeline.Value
import Idealize.ShloMosaic.Lib.ValueIdx

set_option maxRecDepth 16384

noncomputable section

namespace Cert.KernelIdeal.Region4

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

theorem zero_offsets : (![0, 0] : Fin 2 → Nat) = fun _ => 0 := funext fun a => by fin_cases a <;> rfl

/-- Rows times columns over the whole arrays: entry (r, q) is the sum over k of left[r, k] · right[k, q]. -/
def rowsTimesCols (X : FVec Ideal S100000x128 .f32) (Wt : FVec Ideal S128x64 .f32) : FVec Ideal S100000x64 .f32 :=
  fun i => ∑ k : Fin 128, X (ix2 (i 0) k) * Wt (ix2 k (i 1))

/-- The body's stored value at entry (p, q) of its block: the two changes of format are the identity at the ideal
    values, and the product into the zero accumulator is the sum over the contracted axis. -/
theorem stored_entry (x0 : Vec Ideal S5000x128 .f32) (x1 : Vec Ideal S128x64 .f32) (p : Fin 5000) (q : Fin 64) :
    k4_pay1 (F := Ideal) x0 x1 (ix2 p q) = ∑ k : Fin 128, x0 (ix2 p k) * x1 (ix2 k q) := by
  unfold k4_pay1
  simp only [shapeCast_self]
  exact Ideal.matmul_rows_cols dot_S5000x128_S128x64_S5000x64_1_0_0_1_n_n rfl rfl rfl rfl rfl rfl none _ _ p q

/-- The three windows' block indices at every point: the left operand's and the result's blocks move down the rows
    with the point, on the whole column range; the right operand's one block never moves. -/
theorem block_indices : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The sum over k of the operands' blocks at point t, at (p, k) and (k, q), is the whole-array product at the array
    index of entry (p, q) of the result's block: a block's coordinate is the block index times the block size plus the
    coordinate inside the block, and the three windows' indices agree on the row axis and are zero elsewhere. -/
theorem block_entry (X : FVec Ideal S100000x128 .f32) (Wt : FVec Ideal S128x64 .f32) (t : Fin cfg4.N)
    (p : Fin 5000) (q : Fin 64) :
    ∑ k : Fin 128, X (((cfg4.win 0).blk t).view.emb (ix2 p k)) * Wt (((cfg4.win 1).blk t).view.emb (ix2 k q))
      = rowsTimesCols X Wt (((cfg4.win 2).blk t).view.emb (ix2 p q)) := by
  obtain ⟨e0, e1, e2, e3, e4, e5⟩ := block_indices t
  unfold rowsTimesCols
  refine Finset.sum_congr rfl fun k _ => ?_
  have h0 : ((cfg4.win 0).blk t).view.emb (ix2 p k) = ix2 ((((cfg4.win 2).blk t).view.emb (ix2 p q)) 0) k := by
    funext a; apply Fin.ext
    match a with
    | ⟨0, _⟩ => show win4_0.index t (0 : Fin 2) * 5000 + 1 * p.val = win4_2.index t (0 : Fin 2) * 5000 + 1 * p.val; omega
    | ⟨1, _⟩ => show win4_0.index t (1 : Fin 2) * 128 + 1 * k.val = k.val; omega
  have h1 : ((cfg4.win 1).blk t).view.emb (ix2 k q) = ix2 k ((((cfg4.win 2).blk t).view.emb (ix2 p q)) 1) := by
    funext a; apply Fin.ext
    match a with
    | ⟨0, _⟩ => show win4_1.index t (0 : Fin 2) * 128 + 1 * k.val = k.val; omega
    | ⟨1, _⟩ => show win4_1.index t (1 : Fin 2) * 64 + 1 * q.val = win4_2.index t (1 : Fin 2) * 64 + 1 * q.val; omega
  rw [h0, h1]
  rfl

variable (V : (c : Dev nD) → (b : Ref sig .tc) → Buf (Elt Ideal) ((c : Thread nD τ).loc b))

/-- What point t writes back is block t of the whole-array product of the arrays as the region finds them. -/
theorem flushed_eq (c : Dev nD) (t : Fin cfg4.N) :
    (dat4 V c).flushed 2 t = ((cfg4.win 2).blk t).view.read (Elt Ideal)
      (rowsTimesCols (V c (Pipeline.arrRef spec4 0)) (V c (Pipeline.arrRef spec4 1))) := by
  show (cfg4.win 2).cut (grid4.coords t) ((dat4 V c).after 2 t) = _
  rw [after4_2]
  unfold out4_2
  rw [View.canon_unit_zero zero_offsets]
  simp only [View.ld_unit_zero (S := S5000x128) zero_offsets, View.ld_unit_zero (S := S128x64) zero_offsets]
  funext j
  obtain ⟨p, q, rfl⟩ : ∃ (p : Fin 5000) (q : Fin 64), j = ix2 p q := ⟨j 0, j 1, eq_ix2 j⟩
  refine (stored_entry _ _ p q).trans ?_
  exact block_entry (V c (Pipeline.arrRef spec4 0)) (V c (Pipeline.arrRef spec4 1)) t p q

/-- An index of the result is in point t's block iff each coordinate is in the block's range on its axis. -/
theorem mem_block (t : Fin cfg4.N) (i : S100000x64.Idx) :
    i ∈ ((cfg4.win 2).blk t).view.set ↔ ∀ a : Fin 2, win4_2.index t a * S5000x64.size a ≤ (i a).val
      ∧ (i a).val < win4_2.index t a * S5000x64.size a + S5000x64.size a := by
  show i ∈ ((View.whole main_v67).slice (win4_2.rect t)).set ↔ _
  rw [View.set_slice_whole, Rect.mem_set_unit]
  exact Iff.rfl

/-- Row r of the result lies in the block of point r / 5000: the twenty blocks tile the rows. -/
theorem cover (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 20 := N_4
  have ht : (i 0).val / 5000 < cfg4.N := by rw [hN]; omega
  obtain ⟨e0, e1, e2, e3, e4, e5⟩ := block_indices ⟨(i 0).val / 5000, ht⟩
  refine ⟨⟨(i 0).val / 5000, ht⟩, flush4_2 _, ?_⟩
  rw [mem_block]
  intro a
  match a with
  | ⟨0, _⟩ =>
    show win4_2.index ⟨(i 0).val / 5000, ht⟩ (0 : Fin 2) * 5000 ≤ (i 0).val
      ∧ (i 0).val < win4_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win4_2.index ⟨(i 0).val / 5000, ht⟩ (1 : Fin 2) * 64 ≤ (i 1).val
      ∧ (i 1).val < win4_2.index ⟨(i 0).val / 5000, ht⟩ (1 : Fin 2) * 64 + 64
    rw [e5]
    omega

/-- THE RESULT ARRAY after the region: rows times columns of the two operand arrays as the region finds them. -/
theorem result (c : Dev nD) :
    (dat4 V c).arrAt 2 cfg4.N = rowsTimesCols (V c (Pipeline.arrRef spec4 0)) (V c (Pipeline.arrRef spec4 1)) :=
  (dat4 V c).arrAt_eq_of_cover 2 _ (fun t _ => flushed_eq V c t) (cover)

end Cert.KernelIdeal.Region4

end
-- ==== Proof.Region5.lean ====
/-
  Region 5: a bias row added to every row, tiled by rows.

  The grid has twenty points. At point t the body loads rows 5000·t … 5000·t + 4999 of the [100000, 64] operand and the
  whole [1, 64] bias row, broadcasts the row down the block, adds and stores the block. Entry (r, q)
  of the result depends only on entry (r, q) of the operand and entry (0, q) of the row, so what point t writes back is
  block t of ONE function of the whole arrays, and the twenty blocks tile the result's rows.
-/
import proofs.«113409_j84954453115003_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Region5

open Idealize.ShloMosaic Idealize.ShloMosaic.TcCoe Idealize.SL.Sem Idealize.ShloMosaic.ValueIdx
open Idealize.ShloMosaic.Pipeline (Dat)
open Cert.KernelIdeal Cert.KernelIdeal.Gen

theorem zero_offsets : (![0, 0] : Fin 2 → Nat) = fun _ => 0 := funext fun a => by fin_cases a <;> rfl

/-- The row added to every row of the array: entry (r, q) is A[r, q] + B[0, q]. -/
def addRow (A : FVec Ideal S100000x64 .f32) (B : FVec Ideal S1x64 .f32) : FVec Ideal S100000x64 .f32 :=
  fun i => A i + B (ix2 (0 : Fin 1) (i 1))

/-- The body's stored value at entry (p, q) of its block: the two casts to the same shape are the identity, the
    broadcast row reads the bias at (0, q). -/
theorem stored_entry (x0 : Vec Ideal S5000x64 .f32) (x1 : Vec Ideal S1x64 .f32) (p : Fin 5000) (q : Fin 64) :
    k5_pay1 (F := Ideal) x0 x1 (ix2 p q)
      = x0 (ix2 p q) + x1 (ix2 (0 : Fin 1) q) := by
  unfold k5_pay1
  simp only [shapeCast_self]
  show x0 (ix2 p q) + broadcastTo S5000x64 x1 broadcasts_S1x64_S5000x64 (ix2 p q) = _
  rw [broadcastTo_1b_ab_apply]

/-- The three windows' block indices at every point: the operand's and the result's blocks move down the rows with
    the point; the bias row's one block never moves. -/
theorem block_indices : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The operands' blocks at point t, read at (p, q) and (0, q), give the whole-array function at the array index of
    entry (p, q) of the result's block: a block's coordinate is the block index times the block size plus the coordinate
    inside the block, and the windows' indices agree on the row axis and are zero elsewhere. -/
theorem block_entry (A : FVec Ideal S100000x64 .f32) (B : FVec Ideal S1x64 .f32) (t : Fin cfg5.N)
    (p : Fin 5000) (q : Fin 64) :
    A (((cfg5.win 0).blk t).view.emb (ix2 p q)) + B (((cfg5.win 1).blk t).view.emb (ix2 (0 : Fin 1) q))
      = addRow A B (((cfg5.win 2).blk t).view.emb (ix2 p q)) := by
  obtain ⟨e0, e1, e2, e3, e4, e5⟩ := block_indices t
  unfold addRow
  have h0 : ((cfg5.win 0).blk t).view.emb (ix2 p q) = ((cfg5.win 2).blk t).view.emb (ix2 p q) := by
    funext a; apply Fin.ext
    match a with
    | ⟨0, _⟩ => show win5_0.index t (0 : Fin 2) * 5000 + 1 * p.val = win5_2.index t (0 : Fin 2) * 5000 + 1 * p.val; omega
    | ⟨1, _⟩ => show win5_0.index t (1 : Fin 2) * 64 + 1 * q.val = win5_2.index t (1 : Fin 2) * 64 + 1 * q.val; omega
  have h1 : ((cfg5.win 1).blk t).view.emb (ix2 (0 : Fin 1) q) = ix2 (0 : Fin 1) ((((cfg5.win 2).blk t).view.emb (ix2 p q)) 1) := by
    funext a; apply Fin.ext
    match a with
    | ⟨0, _⟩ => show win5_1.index t (0 : Fin 2) * 1 + 1 * 0 = 0; omega
    | ⟨1, _⟩ => show win5_1.index t (1 : Fin 2) * 64 + 1 * q.val = win5_2.index t (1 : Fin 2) * 64 + 1 * q.val; omega
  rw [h0, h1]
  rfl

variable (V : (c : Dev nD) → (b : Ref sig .tc) → Buf (Elt Ideal) ((c : Thread nD τ).loc b))

/-- What point t writes back is block t of the whole-array function of the arrays as the region finds them. -/
theorem flushed_eq (c : Dev nD) (t : Fin cfg5.N) :
    (dat5 V c).flushed 2 t = ((cfg5.win 2).blk t).view.read (Elt Ideal)
      (addRow (V c (Pipeline.arrRef spec5 0)) (V c (Pipeline.arrRef spec5 1))) := by
  show (cfg5.win 2).cut (grid5.coords t) ((dat5 V c).after 2 t) = _
  rw [after5_2]
  unfold out5_2
  rw [View.canon_unit_zero zero_offsets]
  simp only [View.ld_unit_zero (S := S5000x64) zero_offsets, View.ld_unit_zero (S := S1x64) zero_offsets]
  funext j
  obtain ⟨p, q, rfl⟩ : ∃ (p : Fin 5000) (q : Fin 64), j = ix2 p q := ⟨j 0, j 1, eq_ix2 j⟩
  refine (stored_entry _ _ p q).trans ?_
  exact block_entry (V c (Pipeline.arrRef spec5 0)) (V c (Pipeline.arrRef spec5 1)) t p q

/-- An index of the result is in point t's block iff each coordinate is in the block's range on its axis. -/
theorem mem_block (t : Fin cfg5.N) (i : S100000x64.Idx) :
    i ∈ ((cfg5.win 2).blk t).view.set ↔ ∀ a : Fin 2, win5_2.index t a * S5000x64.size a ≤ (i a).val
      ∧ (i a).val < win5_2.index t a * S5000x64.size a + S5000x64.size a := by
  show i ∈ ((View.whole main_v82).slice (win5_2.rect t)).set ↔ _
  rw [View.set_slice_whole, Rect.mem_set_unit]
  exact Iff.rfl

/-- Row r of the result lies in the block of point r / 5000: the twenty blocks tile the rows. -/
theorem cover (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  have hN : cfg5.N = 20 := N_5
  have ht : (i 0).val / 5000 < cfg5.N := by rw [hN]; omega
  obtain ⟨e0, e1, e2, e3, e4, e5⟩ := block_indices ⟨(i 0).val / 5000, ht⟩
  refine ⟨⟨(i 0).val / 5000, ht⟩, flush5_2 _, ?_⟩
  rw [mem_block]
  intro a
  match a with
  | ⟨0, _⟩ =>
    show win5_2.index ⟨(i 0).val / 5000, ht⟩ (0 : Fin 2) * 5000 ≤ (i 0).val
      ∧ (i 0).val < win5_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win5_2.index ⟨(i 0).val / 5000, ht⟩ (1 : Fin 2) * 64 ≤ (i 1).val
      ∧ (i 1).val < win5_2.index ⟨(i 0).val / 5000, ht⟩ (1 : Fin 2) * 64 + 64
    rw [e5]
    omega

/-- THE RESULT ARRAY after the region: the row added to every row, of the two arrays as the region finds them. -/
theorem result (c : Dev nD) :
    (dat5 V c).arrAt 2 cfg5.N = addRow (V c (Pipeline.arrRef spec5 0)) (V c (Pipeline.arrRef spec5 1)) :=
  (dat5 V c).arrAt_eq_of_cover 2 _ (fun t _ => flushed_eq V c t) (cover)

end Cert.KernelIdeal.Region5

end
-- ==== Proof.KernelValue.lean ====
/-
  The idealized kernel's result as stages of whole-array operations.

  The contents of the buffers at each boundary between two segments of the program are a fold from the launch memory:
  a host stretch applies its operations, a region replaces its result array by what its write-backs leave. Read at
  the buffers that matter — the edge indices and factors, each layer's product, aggregate and activation — the fold says:
  the first stretches compute the indices and factors from the edge list and weights; each dense region leaves the rows
  times columns of its operands; each stretch between regions aggregates that product over the edges and lays the
  bias out as a row; each bias region adds the row (and takes the maximum with zero). The indices, the factors and the
  arguments are never rewritten after they are computed, so every later boundary finds them unchanged.
-/
import proofs.«113409_j84954453115003_1_alg».proof.Proof.Gen.KernelIdeal.Frame
import proofs.«113409_j84954453115003_1_alg».proof.Proof.KernelStages
import proofs.«113409_j84954453115003_1_alg».proof.Proof.Region0
import proofs.«113409_j84954453115003_1_alg».proof.Proof.Region1
import proofs.«113409_j84954453115003_1_alg».proof.Proof.Region2
import proofs.«113409_j84954453115003_1_alg».proof.Proof.Region3
import proofs.«113409_j84954453115003_1_alg».proof.Proof.Region4
import proofs.«113409_j84954453115003_1_alg».proof.Proof.Region5

set_option maxRecDepth 16384

noncomputable section

namespace Cert.KernelIdeal.NetValue

open Idealize.ShloMosaic Idealize.ShloMosaic.TcCoe Idealize.SL.Sem
open Cert.KernelIdeal Cert.KernelIdeal.Gen Cert.KernelIdeal.Stages

/-- Reads each remaining host operation's result at a buffer, one rewrite at a time: an operation's result at its own buffer is its
    function of its operands' contents, and at any other buffer what was there. Rewriting reaches the operands inside a
    concatenation's list, where a simp pass does not. -/
local macro "read_results" : tactic =>
  `(tactic| (repeat (first
               | rw [StableHlo.nullary_result] | rw [StableHlo.unary_result] | rw [StableHlo.binary_result] | rw [StableHlo.ternary_result]
               | rw [StableHlo.reshape_result]
               | (rw [StableHlo.nullary_result_ne]; rotate_left; decide)
               | (rw [StableHlo.unary_result_ne]; rotate_left; decide)
               | (rw [StableHlo.binary_result_ne]; rotate_left; decide)
               | (rw [StableHlo.ternary_result_ne]; rotate_left; decide)
               | (rw [StableHlo.reshape_result_ne]; rotate_left; decide))))

section Host

variable {F : FTy → Type} [FloatOps F]
variable (m : (ℓ : Loc nD τ sig) → Buf (Elt F) ℓ) (ρ : Dev nD → PrngReg) (c : Dev nD)

/-! ## The first stretches: the edge indices, the factors, and the arguments at the first region's entry -/

set_option maxHeartbeats 4000000 in
/-- The sources of the edges and self-loops, of the launch edge list. -/
theorem row_at_entry : W5 m ρ c (Proc.devRef .tc main_v3) = rowIdx (m ((c.tc : Thread nD τ).loc main_arg1)) := by
  show StableHlo.after hostOps0_4 (StableHlo.after hostOps0_3 (StableHlo.after hostOps0_2 (StableHlo.after hostOps0_1
    (StableHlo.after hostOps0 (W0 m ρ c))))) (Proc.devRef .tc main_v3) = _
  dsimp only [hostOps0, hostOps0_1, hostOps0_2, hostOps0_3, hostOps0_4]
  after_results_simp
  read_results
  rfl

set_option maxHeartbeats 4000000 in
/-- The targets of the edges and self-loops, of the launch edge list. -/
theorem col_at_entry : W5 m ρ c (Proc.devRef .tc main_v6) = colIdx (m ((c.tc : Thread nD τ).loc main_arg1)) := by
  show StableHlo.after hostOps0_4 (StableHlo.after hostOps0_3 (StableHlo.after hostOps0_2 (StableHlo.after hostOps0_1
    (StableHlo.after hostOps0 (W0 m ρ c))))) (Proc.devRef .tc main_v6) = _
  dsimp only [hostOps0, hostOps0_1, hostOps0_2, hostOps0_3, hostOps0_4]
  after_results_simp
  read_results
  rfl

set_option maxHeartbeats 8000000 in
/-- The edges' normalising factors, of the launch edge list and weights. -/
theorem norm_at_entry : W5 m ρ c (Proc.devRef .tc main_v34)
    = edgeNorm (F := F) (invSqrtDeg (degree (colIdx (m ((c.tc : Thread nD τ).loc main_arg1))) (edgeW (m ((c.tc : Thread nD τ).loc main_arg2))))) (rowIdx (m ((c.tc : Thread nD τ).loc main_arg1))) (colIdx (m ((c.tc : Thread nD τ).loc main_arg1))) (edgeW (m ((c.tc : Thread nD τ).loc main_arg2))) := by
  show StableHlo.after hostOps0_4 (StableHlo.after hostOps0_3 (StableHlo.after hostOps0_2 (StableHlo.after hostOps0_1
    (StableHlo.after hostOps0 (W0 m ρ c))))) (Proc.devRef .tc main_v34) = _
  dsimp only [hostOps0, hostOps0_1, hostOps0_2, hostOps0_3, hostOps0_4]
  after_results_simp
  read_results
  rfl

set_option maxHeartbeats 4000000 in
/-- No operation of the first stretches writes argument 0. -/
theorem arg0_at_entry : W5 m ρ c (Proc.devRef .tc main_arg0) = (m ((c.tc : Thread nD τ).loc main_arg0)) := by
  show StableHlo.after hostOps0_4 (StableHlo.after hostOps0_3 (StableHlo.after hostOps0_2 (StableHlo.after hostOps0_1
    (StableHlo.after hostOps0 (W0 m ρ c))))) (Proc.devRef .tc main_arg0) = _
  dsimp only [hostOps0, hostOps0_1, hostOps0_2, hostOps0_3, hostOps0_4]
  after_results_simp

set_option maxHeartbeats 4000000 in
/-- No operation of the first stretches writes argument 3. -/
theorem arg3_at_entry : W5 m ρ c (Proc.devRef .tc main_arg3) = (m ((c.tc : Thread nD τ).loc main_arg3)) := by
  show StableHlo.after hostOps0_4 (StableHlo.after hostOps0_3 (StableHlo.after hostOps0_2 (StableHlo.after hostOps0_1
    (StableHlo.after hostOps0 (W0 m ρ c))))) (Proc.devRef .tc main_arg3) = _
  dsimp only [hostOps0, hostOps0_1, hostOps0_2, hostOps0_3, hostOps0_4]
  after_results_simp

set_option maxHeartbeats 4000000 in
/-- No operation of the first stretches writes argument 4. -/
theorem arg4_at_entry : W5 m ρ c (Proc.devRef .tc main_arg4) = (m ((c.tc : Thread nD τ).loc main_arg4)) := by
  show StableHlo.after hostOps0_4 (StableHlo.after hostOps0_3 (StableHlo.after hostOps0_2 (StableHlo.after hostOps0_1
    (StableHlo.after hostOps0 (W0 m ρ c))))) (Proc.devRef .tc main_arg4) = _
  dsimp only [hostOps0, hostOps0_1, hostOps0_2, hostOps0_3, hostOps0_4]
  after_results_simp

set_option maxHeartbeats 4000000 in
/-- No operation of the first stretches writes argument 5. -/
theorem arg5_at_entry : W5 m ρ c (Proc.devRef .tc main_arg5) = (m ((c.tc : Thread nD τ).loc main_arg5)) := by
  show StableHlo.after hostOps0_4 (StableHlo.after hostOps0_3 (StableHlo.after hostOps0_2 (StableHlo.after hostOps0_1
    (StableHlo.after hostOps0 (W0 m ρ c))))) (Proc.devRef .tc main_arg5) = _
  dsimp only [hostOps0, hostOps0_1, hostOps0_2, hostOps0_3, hostOps0_4]
  after_results_simp

set_option maxHeartbeats 4000000 in
/-- No operation of the first stretches writes argument 6. -/
theorem arg6_at_entry : W5 m ρ c (Proc.devRef .tc main_arg6) = (m ((c.tc : Thread nD τ).loc main_arg6)) := by
  show StableHlo.after hostOps0_4 (StableHlo.after hostOps0_3 (StableHlo.after hostOps0_2 (StableHlo.after hostOps0_1
    (StableHlo.after hostOps0 (W0 m ρ c))))) (Proc.devRef .tc main_arg6) = _
  dsimp only [hostOps0, hostOps0_1, hostOps0_2, hostOps0_3, hostOps0_4]
  after_results_simp

set_option maxHeartbeats 4000000 in
/-- No operation of the first stretches writes argument 7. -/
theorem arg7_at_entry : W5 m ρ c (Proc.devRef .tc main_arg7) = (m ((c.tc : Thread nD τ).loc main_arg7)) := by
  show StableHlo.after hostOps0_4 (StableHlo.after hostOps0_3 (StableHlo.after hostOps0_2 (StableHlo.after hostOps0_1
    (StableHlo.after hostOps0 (W0 m ρ c))))) (Proc.devRef .tc main_arg7) = _
  dsimp only [hostOps0, hostOps0_1, hostOps0_2, hostOps0_3, hostOps0_4]
  after_results_simp

set_option maxHeartbeats 4000000 in
/-- No operation of the first stretches writes argument 8. -/
theorem arg8_at_entry : W5 m ρ c (Proc.devRef .tc main_arg8) = (m ((c.tc : Thread nD τ).loc main_arg8)) := by
  show StableHlo.after hostOps0_4 (StableHlo.after hostOps0_3 (StableHlo.after hostOps0_2 (StableHlo.after hostOps0_1
    (StableHlo.after hostOps0 (W0 m ρ c))))) (Proc.devRef .tc main_arg8) = _
  dsimp only [hostOps0, hostOps0_1, hostOps0_2, hostOps0_3, hostOps0_4]
  after_results_simp

/-! ## What later boundaries find unchanged -/

/-- The sources at the first aggregation. -/
theorem row_at_6 : W6 m ρ c (Proc.devRef .tc main_v3) = W5 m ρ c (Proc.devRef .tc main_v3) :=
  calc W6 m ρ c (Proc.devRef .tc main_v3)
    _ = W5 m ρ c (Proc.devRef .tc main_v3) := W6_of_ne m ρ c main_v3 (by decide)

/-- The targets at the first aggregation. -/
theorem col_at_6 : W6 m ρ c (Proc.devRef .tc main_v6) = W5 m ρ c (Proc.devRef .tc main_v6) :=
  calc W6 m ρ c (Proc.devRef .tc main_v6)
    _ = W5 m ρ c (Proc.devRef .tc main_v6) := W6_of_ne m ρ c main_v6 (by decide)

/-- The factors at the first aggregation. -/
theorem norm_at_6 : W6 m ρ c (Proc.devRef .tc main_v34) = W5 m ρ c (Proc.devRef .tc main_v34) :=
  calc W6 m ρ c (Proc.devRef .tc main_v34)
    _ = W5 m ρ c (Proc.devRef .tc main_v34) := W6_of_ne m ρ c main_v34 (by decide)

/-- The first bias at the first aggregation. -/
theorem arg4_at_6 : W6 m ρ c (Proc.devRef .tc main_arg4) = W5 m ρ c (Proc.devRef .tc main_arg4) :=
  calc W6 m ρ c (Proc.devRef .tc main_arg4)
    _ = W5 m ρ c (Proc.devRef .tc main_arg4) := W6_of_ne m ρ c main_arg4 (by decide)

/-- The second weight matrix at the second dense region. -/
theorem arg5_at_8 : W8 m ρ c (Proc.devRef .tc main_arg5) = W5 m ρ c (Proc.devRef .tc main_arg5) :=
  calc W8 m ρ c (Proc.devRef .tc main_arg5)
    _ = W7 m ρ c (Proc.devRef .tc main_arg5) := W8_of_ne m ρ c main_arg5 (by decide)
    _ = W6 m ρ c (Proc.devRef .tc main_arg5) := StableHlo.after_of_forall_not_mem _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg5) := W6_of_ne m ρ c main_arg5 (by decide)

/-- The sources at the second aggregation. -/
theorem row_at_9 : W9 m ρ c (Proc.devRef .tc main_v3) = W5 m ρ c (Proc.devRef .tc main_v3) :=
  calc W9 m ρ c (Proc.devRef .tc main_v3)
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := StableHlo.after_of_forall_not_mem _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)

/-- The targets at the second aggregation. -/
theorem col_at_9 : W9 m ρ c (Proc.devRef .tc main_v6) = W5 m ρ c (Proc.devRef .tc main_v6) :=
  calc W9 m ρ c (Proc.devRef .tc main_v6)
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := StableHlo.after_of_forall_not_mem _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v6) := W6_of_ne m ρ c main_v6 (by decide)

/-- The factors at the second aggregation. -/
theorem norm_at_9 : W9 m ρ c (Proc.devRef .tc main_v34) = W5 m ρ c (Proc.devRef .tc main_v34) :=
  calc W9 m ρ c (Proc.devRef .tc main_v34)
    _ = W8 m ρ c (Proc.devRef .tc main_v34) := W9_of_ne m ρ c main_v34 (by decide)
    _ = W7 m ρ c (Proc.devRef .tc main_v34) := W8_of_ne m ρ c main_v34 (by decide)
    _ = W6 m ρ c (Proc.devRef .tc main_v34) := StableHlo.after_of_forall_not_mem _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v34) := W6_of_ne m ρ c main_v34 (by decide)

/-- The second bias at the second aggregation. -/
theorem arg6_at_9 : W9 m ρ c (Proc.devRef .tc main_arg6) = W5 m ρ c (Proc.devRef .tc main_arg6) :=
  calc W9 m ρ c (Proc.devRef .tc main_arg6)
    _ = W8 m ρ c (Proc.devRef .tc main_arg6) := W9_of_ne m ρ c main_arg6 (by decide)
    _ = W7 m ρ c (Proc.devRef .tc main_arg6) := W8_of_ne m ρ c main_arg6 (by decide)
    _ = W6 m ρ c (Proc.devRef .tc main_arg6) := StableHlo.after_of_forall_not_mem _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := W6_of_ne m ρ c main_arg6 (by decide)

/-- The third weight matrix at the third dense region. -/
theorem arg7_at_11 : W11 m ρ c (Proc.devRef .tc main_arg7) = W5 m ρ c (Proc.devRef .tc main_arg7) :=
  calc W11 m ρ c (Proc.devRef .tc main_arg7)
    _ = W10 m ρ c (Proc.devRef .tc main_arg7) := W11_of_ne m ρ c main_arg7 (by decide)
    _ = W9 m ρ c (Proc.devRef .tc main_arg7) := StableHlo.after_of_forall_not_mem _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := StableHlo.after_of_forall_not_mem _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)

/-- The sources at the third aggregation. -/
theorem row_at_12 : W12 m ρ c (Proc.devRef .tc main_v3) = W5 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := W11_of_ne m ρ c main_v3 (by decide)
    _ = W9 m ρ c (Proc.devRef .tc main_v3) := StableHlo.after_of_forall_not_mem _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := StableHlo.after_of_forall_not_mem _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)

/-- The targets at the third aggregation. -/
theorem col_at_12 : W12 m ρ c (Proc.devRef .tc main_v6) = W5 m ρ c (Proc.devRef .tc main_v6) :=
  calc W12 m ρ c (Proc.devRef .tc main_v6)
    _ = W11 m ρ c (Proc.devRef .tc main_v6) := W12_of_ne m ρ c main_v6 (by decide)
    _ = W10 m ρ c (Proc.devRef .tc main_v6) := W11_of_ne m ρ c main_v6 (by decide)
    _ = W9 m ρ c (Proc.devRef .tc main_v6) := StableHlo.after_of_forall_not_mem _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := StableHlo.after_of_forall_not_mem _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v6) := W6_of_ne m ρ c main_v6 (by decide)

/-- The factors at the third aggregation. -/
theorem norm_at_12 : W12 m ρ c (Proc.devRef .tc main_v34) = W5 m ρ c (Proc.devRef .tc main_v34) :=
  calc W12 m ρ c (Proc.devRef .tc main_v34)
    _ = W11 m ρ c (Proc.devRef .tc main_v34) := W12_of_ne m ρ c main_v34 (by decide)
    _ = W10 m ρ c (Proc.devRef .tc main_v34) := W11_of_ne m ρ c main_v34 (by decide)
    _ = W9 m ρ c (Proc.devRef .tc main_v34) := StableHlo.after_of_forall_not_mem _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v34) := W9_of_ne m ρ c main_v34 (by decide)
    _ = W7 m ρ c (Proc.devRef .tc main_v34) := W8_of_ne m ρ c main_v34 (by decide)
    _ = W6 m ρ c (Proc.devRef .tc main_v34) := StableHlo.after_of_forall_not_mem _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v34) := W6_of_ne m ρ c main_v34 (by decide)

/-- The third bias at the third aggregation. -/
theorem arg8_at_12 : W12 m ρ c (Proc.devRef .tc main_arg8) = W5 m ρ c (Proc.devRef .tc main_arg8) :=
  calc W12 m ρ c (Proc.devRef .tc main_arg8)
    _ = W11 m ρ c (Proc.devRef .tc main_arg8) := W12_of_ne m ρ c main_arg8 (by decide)
    _ = W10 m ρ c (Proc.devRef .tc main_arg8) := W11_of_ne m ρ c main_arg8 (by decide)
    _ = W9 m ρ c (Proc.devRef .tc main_arg8) := StableHlo.after_of_forall_not_mem _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := StableHlo.after_of_forall_not_mem _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)

/-! ## The stretches between regions -/

set_option maxHeartbeats 4000000 in
/-- The stretch after it aggregates that product over the edges. -/
theorem agg1 : W7 m ρ c (Proc.devRef .tc main_v48)
    = aggregate128 (F := F) (W6 m ρ c (Proc.devRef .tc main_v35)) (W6 m ρ c (Proc.devRef .tc main_v3)) (W6 m ρ c (Proc.devRef .tc main_v6)) (W6 m ρ c (Proc.devRef .tc main_v34)) := by
  show StableHlo.after hostOps1 (W6 m ρ c) (Proc.devRef .tc main_v48) = _
  dsimp only [hostOps1]
  after_results_simp
  rfl

/-- … and lays the first bias out as a row. -/
theorem biasrow1 : W7 m ρ c (Proc.devRef .tc main_v49) = shapeCast S1x128 (W6 m ρ c (Proc.devRef .tc main_arg4)) shapeCasts_S128_S1x128 := by
  show StableHlo.after hostOps1 (W6 m ρ c) (Proc.devRef .tc main_v49) = _
  dsimp only [hostOps1]
  after_results_simp
  rfl

set_option maxHeartbeats 4000000 in
theorem agg2 : W10 m ρ c (Proc.devRef .tc main_v64)
    = aggregate128 (F := F) (W9 m ρ c (Proc.devRef .tc main_v51)) (W9 m ρ c (Proc.devRef .tc main_v3)) (W9 m ρ c (Proc.devRef .tc main_v6)) (W9 m ρ c (Proc.devRef .tc main_v34)) := by
  show StableHlo.after hostOps3 (W9 m ρ c) (Proc.devRef .tc main_v64) = _
  dsimp only [hostOps3]
  after_results_simp
  rfl

theorem biasrow2 : W10 m ρ c (Proc.devRef .tc main_v65) = shapeCast S1x128 (W9 m ρ c (Proc.devRef .tc main_arg6)) shapeCasts_S128_S1x128 := by
  show StableHlo.after hostOps3 (W9 m ρ c) (Proc.devRef .tc main_v65) = _
  dsimp only [hostOps3]
  after_results_simp
  rfl

set_option maxHeartbeats 4000000 in
theorem agg3 : W13 m ρ c (Proc.devRef .tc main_v80)
    = aggregate64 (F := F) (W12 m ρ c (Proc.devRef .tc main_v67)) (W12 m ρ c (Proc.devRef .tc main_v3)) (W12 m ρ c (Proc.devRef .tc main_v6)) (W12 m ρ c (Proc.devRef .tc main_v34)) := by
  show StableHlo.after hostOps5 (W12 m ρ c) (Proc.devRef .tc main_v80) = _
  dsimp only [hostOps5]
  after_results_simp
  rfl

theorem biasrow3 : W13 m ρ c (Proc.devRef .tc main_v81) = shapeCast S1x64 (W12 m ρ c (Proc.devRef .tc main_arg8)) shapeCasts_S64_S1x64 := by
  show StableHlo.after hostOps5 (W12 m ρ c) (Proc.devRef .tc main_v81) = _
  dsimp only [hostOps5]
  after_results_simp
  rfl

end Host

section AtIdeal

variable (m : (ℓ : Loc nD τ sig) → Buf (Elt Ideal) ℓ) (ρ : Dev nD → PrngReg) (c : Dev nD)

/-! ## The regions -/

/-- Region 0 leaves the product of the node features with the first weight matrix. -/
theorem dense1 : W6 m ρ c (Proc.devRef .tc main_v35) = Region0.rowsTimesCols (m ((c.tc : Thread nD τ).loc main_arg0)) (m ((c.tc : Thread nD τ).loc main_arg3)) :=
  (W6_arr m ρ c 2).trans ((Region0.result (V5 m ρ) c).trans
    (congrArg₂ Region0.rowsTimesCols (arg0_at_entry m ρ c) (arg3_at_entry m ρ c)))

/-- Region 1 adds the row and takes the maximum with zero. -/
theorem act1 : W8 m ρ c (Proc.devRef .tc main_v50) = Region1.addRow (W7 m ρ c (Proc.devRef .tc main_v48)) (W7 m ρ c (Proc.devRef .tc main_v49)) :=
  (W8_arr m ρ c 2).trans (Region1.result (V7 m ρ) c)

/-- Region 2 leaves the product of that with the second weight matrix. -/
theorem dense2 : W9 m ρ c (Proc.devRef .tc main_v51) = Region2.rowsTimesCols (W8 m ρ c (Proc.devRef .tc main_v50)) (W8 m ρ c (Proc.devRef .tc main_arg5)) :=
  (W9_arr m ρ c 2).trans (Region2.result (V8 m ρ) c)

theorem act2 : W11 m ρ c (Proc.devRef .tc main_v66) = Region3.addRow (W10 m ρ c (Proc.devRef .tc main_v64)) (W10 m ρ c (Proc.devRef .tc main_v65)) :=
  (W11_arr m ρ c 2).trans (Region3.result (V10 m ρ) c)

theorem dense3 : W12 m ρ c (Proc.devRef .tc main_v67) = Region4.rowsTimesCols (W11 m ρ c (Proc.devRef .tc main_v66)) (W11 m ρ c (Proc.devRef .tc main_arg7)) :=
  (W12_arr m ρ c 2).trans (Region4.result (V11 m ρ) c)

/-- Region 5 adds the last bias row: the result. -/
theorem out3 : W14 m ρ c (Proc.devRef .tc main_v82) = Region5.addRow (W13 m ρ c (Proc.devRef .tc main_v80)) (W13 m ρ c (Proc.devRef .tc main_v81)) :=
  (W14_arr m ρ c 2).trans (Region5.result (V13 m ρ) c)

/-! ## The whole network -/

/-- The three layers as the kernel computes them, over given edge indices and factors. -/
def layers (row col : IVec S1700000 32) (nrm : FVec Ideal S1700000 .f32) (x : FVec Ideal S100000x128 .f32)
    (W1 : FVec Ideal S128x128 .f32) (b1 : FVec Ideal S128 .f32) (W2 : FVec Ideal S128x128 .f32) (b2 : FVec Ideal S128 .f32)
    (W3 : FVec Ideal S128x64 .f32) (b3 : FVec Ideal S64 .f32) : FVec Ideal S100000x64 .f32 :=
  Region5.addRow (aggregate64 (Region4.rowsTimesCols (Region3.addRow (aggregate128 (Region2.rowsTimesCols
    (Region1.addRow (aggregate128 (Region0.rowsTimesCols x W1) row col nrm) (shapeCast S1x128 b1 shapeCasts_S128_S1x128)) W2)
    row col nrm) (shapeCast S1x128 b2 shapeCasts_S128_S1x128)) W3) row col nrm) (shapeCast S1x64 b3 shapeCasts_S64_S1x64)

/-- THE RESULT: the last boundary's contents at the result buffer are the three layers over the indices and factors of
    the launch edge list and weights, of the launch arguments. -/
theorem result_value : W14 m ρ c (Proc.devRef .tc main_v82)
    = layers (rowIdx (m ((c.tc : Thread nD τ).loc main_arg1))) (colIdx (m ((c.tc : Thread nD τ).loc main_arg1)))
        (edgeNorm (F := Ideal) (invSqrtDeg (degree (colIdx (m ((c.tc : Thread nD τ).loc main_arg1))) (edgeW (m ((c.tc : Thread nD τ).loc main_arg2))))) (rowIdx (m ((c.tc : Thread nD τ).loc main_arg1))) (colIdx (m ((c.tc : Thread nD τ).loc main_arg1))) (edgeW (m ((c.tc : Thread nD τ).loc main_arg2))))
        (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold layers
  rw [out3, agg3, biasrow3, dense3, act2, agg2, biasrow2, dense2, act1, agg1, biasrow1, dense1]
  rw [row_at_12, col_at_12, norm_at_12, arg8_at_12, arg7_at_11, row_at_9, col_at_9, norm_at_9, arg6_at_9, arg5_at_8,
    row_at_6, col_at_6, norm_at_6, arg4_at_6]
  rw [row_at_entry, col_at_entry, norm_at_entry, arg4_at_entry, arg5_at_entry, arg6_at_entry, arg7_at_entry, arg8_at_entry]

end AtIdeal

end Cert.KernelIdeal.NetValue

end
-- ==== Proof.RefStages.lean ====
/-
  The graph network as stages of whole-array operations.

  From the edge list and the edge weights: the source and target index of every edge with one self-loop per node
  appended, the weights with a one appended per self-loop, each node's weighted in-degree (a scatter-add of the weights
  at the targets), its inverse square root where the degree is positive and zero elsewhere, and each edge's normalising
  factor (the two end nodes' inverse square roots times the weight). A layer multiplies the node features by a weight
  matrix, gathers the product's rows at the edges' sources, scales each by its edge's factor, scatter-adds them at the
  targets, and adds the bias row; the first two layers end with the maximum with zero. Each stage is the operations'
  own term; nothing is computed here.
-/
import proofs.«113409_j84954453115003_1_alg».proof.Proof.Gen.ReferenceIdeal
import Idealize.ShloMosaic.PureOps.Ideal

noncomputable section

namespace Cert.ReferenceIdeal.Stages

open Cert.ReferenceIdeal Cert.ReferenceIdeal.Gen Idealize.ShloMosaic Idealize.ShloMosaic.TcCoe

variable {F : FTy → Type} [FloatOps F]

/-- The source of every edge, then of every self-loop (node n's is n). -/
def rowIdx (ei : IVec S2x1600000 32) : IVec S1700000 32 :=
  (concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0)
/-- The target of every edge, then of every self-loop. -/
def colIdx (ei : IVec S2x1600000 32) : IVec S1700000 32 :=
  (concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0)
/-- The weight of every edge, then a one per self-loop. -/
def edgeW (ew : FVec F S1600000 .f32) : FVec F S1700000 .f32 :=
  (concatenate S1700000 0 [⟨S1600000, ew⟩, ⟨S100000, (broadcastInDim S100000 ![] bcast_S_S100000 (constant S_ .f32 0x3F800000#32))⟩] concatenates_S1600000_S100000_S1700000_d0)
/-- Each node's weighted in-degree: the weights scatter-added at the targets, from zero. -/
def degree (col : IVec S1700000 32) (w : FVec F S1700000 .f32) : FVec F S100000 .f32 :=
  (Host.scatterAdd scatter_S100000_S1700000x1_S1700000_n_0_0_1 (broadcastInDim S100000 ![] bcast_S_S100000 (constant S_ .f32 0x00000000#32)) (broadcastInDim S1700000x1 ![0] bcast_S1700000_S1700000x1_0 col) w)
/-- The inverse square root of a positive degree (taken of one where the degree is not positive), zero elsewhere. -/
def invSqrtDeg (deg : FVec F S100000 .f32) : FVec F S100000 .f32 :=
  (select (cmpf .ogt deg (broadcastInDim S100000 ![] bcast_S_S100000 (constant S_ .f32 0x00000000#32))) (Host.rsqrt (select (cmpf .ogt deg (broadcastInDim S100000 ![] bcast_S_S100000 (constant S_ .f32 0x00000000#32))) deg (broadcastInDim S100000 ![] bcast_S_S100000 (id (constant S_ .f32 0x3F800000#32))))) (broadcastInDim S100000 ![] bcast_S_S100000 (id (constant S_ .f32 0x00000000#32))))
/-- A node index as a gather reads it: a negative one moved up by the number of nodes, laid out as a column. -/
def wrapIdx (x : IVec S1700000 32) : IVec S1700000x1 32 :=
  (broadcastInDim S1700000x1 ![0] bcast_S1700000_S1700000x1_0 (select (cmpi .slt x (broadcastInDim S1700000 ![] bcast_S_S1700000 (constantI S_ 32 0#32))) (addi x (broadcastInDim S1700000 ![] bcast_S_S1700000 (constantI S_ 32 100000#32))) x))
/-- Each edge's normalising factor: its source's inverse square root, times its weight, times its target's. -/
def edgeNorm (dinv : FVec F S100000 .f32) (row col : IVec S1700000 32) (w : FVec F S1700000 .f32) : FVec F S1700000 .f32 :=
  (mulf (mulf (Host.gather gather_S100000_S1700000x1_S1700000_n_0_n_n_0_1_1 dinv (wrapIdx row)) w) (Host.gather gather_S100000_S1700000x1_S1700000_n_0_n_n_0_1_1 dinv (wrapIdx col)))
/-- Aggregation of 128 features: rows of h gathered at the sources, scaled by the factors, scatter-added at the targets. -/
def aggregate128 (h : FVec F S100000x128 .f32) (row col : IVec S1700000 32) (nrm : FVec F S1700000 .f32) : FVec F S100000x128 .f32 :=
  (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 col) (mulf (Host.gather gather_S100000x128_S1700000x1_S1700000x128_1_0_n_n_0_1_1128 h (wrapIdx row)) (broadcastInDim S1700000x128 ![0, 1] bcast_S1700000x1_S1700000x128_0_1 (broadcastInDim S1700000x1 ![0] bcast_S1700000_S1700000x1_0 nrm))))
/-- The same for 64 features. -/
def aggregate64 (h : FVec F S100000x64 .f32) (row col : IVec S1700000 32) (nrm : FVec F S1700000 .f32) : FVec F S100000x64 .f32 :=
  (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 col) (mulf (Host.gather gather_S100000x64_S1700000x1_S1700000x64_1_0_n_n_0_1_164 h (wrapIdx row)) (broadcastInDim S1700000x64 ![0, 1] bcast_S1700000x1_S1700000x64_0_1 (broadcastInDim S1700000x1 ![0] bcast_S1700000_S1700000x1_0 nrm))))

end Cert.ReferenceIdeal.Stages

end
-- ==== Proof.RefValue.lean ====
/-
  The reference's result as the network of stages.

  The reference program is a straight line of host operations; its generated run states the result as the operations'
  composed term of the argument arrays. That term is the network: three layers (dense product, aggregation over the
  edges, bias row; the first two ending with the maximum with zero) over the edge indices and normalising factors
  computed once from the edge list and weights. The two spellings are the same term with its shared subterms named.
-/
import proofs.«113409_j84954453115003_1_alg».proof.Proof.Gen.ReferenceIdeal.Run
import proofs.«113409_j84954453115003_1_alg».proof.Proof.RefStages

noncomputable section

namespace Cert.ReferenceIdeal.Net

open Cert.ReferenceIdeal Cert.ReferenceIdeal.Gen Cert.ReferenceIdeal.Stages
open Idealize.ShloMosaic Idealize.ShloMosaic.TcCoe Idealize.SL.Sem

variable {F : FTy → Type} [FloatOps F]

/-- A dense layer into 128 features: the host's matrix product of the node features with the weights. -/
def dense128 (x : FVec F S100000x128 .f32) (w : FVec F S128x128 .f32) : FVec F S100000x128 .f32 :=
  Host.dotGeneral dot_S100000x128_S128x128_S100000x128_1_0_0_1_n_n none x w
/-- A dense layer into 64 features. -/
def dense64 (x : FVec F S100000x128 .f32) (w : FVec F S128x64 .f32) : FVec F S100000x64 .f32 :=
  Host.dotGeneral dot_S100000x128_S128x64_S100000x64_1_0_0_1_n_n none x w
/-- The bias laid out as a row, broadcast down the rows and added; then the maximum with zero. -/
def biasRelu (a : FVec F S100000x128 .f32) (b : FVec F S128 .f32) : FVec F S100000x128 .f32 :=
  maximumf (addf a (broadcastInDim S100000x128 ![0, 1] bcast_S1x128_S100000x128_0_1 (broadcastInDim S1x128 ![1] bcast_S128_S1x128_1 b))) (broadcastInDim S100000x128 ![] bcast_S_S100000x128 (constant S_ .f32 0x00000000#32))
/-- The bias laid out as a row, broadcast down the rows and added. -/
def bias64 (a : FVec F S100000x64 .f32) (b : FVec F S64 .f32) : FVec F S100000x64 .f32 :=
  addf a (broadcastInDim S100000x64 ![0, 1] bcast_S1x64_S100000x64_0_1 (broadcastInDim S1x64 ![1] bcast_S64_S1x64_1 b))

/-- The three layers over given edge indices and factors. -/
def layers (row col : IVec S1700000 32) (nrm : FVec F S1700000 .f32) (x : FVec F S100000x128 .f32)
    (W1 : FVec F S128x128 .f32) (b1 : FVec F S128 .f32) (W2 : FVec F S128x128 .f32) (b2 : FVec F S128 .f32)
    (W3 : FVec F S128x64 .f32) (b3 : FVec F S64 .f32) : FVec F S100000x64 .f32 :=
  bias64 (aggregate64 (dense64 (biasRelu (aggregate128 (dense128 (biasRelu (aggregate128 (dense128 x W1) row col nrm) b1) W2) row col nrm) b2) W3) row col nrm) b3

/-- The network: the layers over the indices and factors computed from the edge list and weights. -/
def net (x : FVec F S100000x128 .f32) (ei : IVec S2x1600000 32) (ew : FVec F S1600000 .f32)
    (W1 : FVec F S128x128 .f32) (b1 : FVec F S128 .f32) (W2 : FVec F S128x128 .f32) (b2 : FVec F S128 .f32)
    (W3 : FVec F S128x64 .f32) (b3 : FVec F S64 .f32) : FVec F S100000x64 .f32 :=
  layers (rowIdx ei) (colIdx ei)
    (edgeNorm (invSqrtDeg (degree (colIdx ei) (edgeW ew))) (rowIdx ei) (colIdx ei) (edgeW ew)) x W1 b1 W2 b2 W3 b3

set_option maxRecDepth 8192 in
/-- The generated run's result term is the network of the argument arrays. -/
theorem result_eq (m : (ℓ : Loc nD τ sig) → Buf (Elt F) ℓ) (c : Dev nD) :
    Value.res_main_v87 m c = net (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) := by
  unfold Value.res_main_v87 net layers bias64 biasRelu dense64 dense128 aggregate64 aggregate128 edgeNorm invSqrtDeg degree
    edgeW colIdx rowIdx wrapIdx
  rfl

end Cert.ReferenceIdeal.Net

end
-- ==== Proof.LibDotGeneralEntry.lean ====
/-
  The host's `dot_general` of two rank-2 operands, `[M, K] × [K, N] → [M, N]` contracting the left operand's axis 1 with
  the right operand's axis 0, read at ONE ENTRY of its result at the ideal values: entry `(p, q)` is
  `Σ_k a[p, k] · b[k, q]`, a plain sum over `Fin K`, whatever the schedule key — stated for ANY dimension-number record
  with those six lists, any extents and operand formats.

  At the ideal values the host product and a `tpu.matmul` into the zero accumulator are the same sum over the
  contraction's index type, so the entry form of the matrix product (LibMatmulEntry) carries over.
-/
import proofs.«113409_j84954453115003_1_alg».proof.Proof.LibMatmulEntry

noncomputable section

open scoped BigOperators

namespace Idealize.ShloMosaic.Ideal

open Idealize.ShloMosaic.ValueIdx

/-- Rows times columns on the host: `[M, K] × [K, N] → [M, N]`, at entry `(p, q)`. -/
theorem dotGeneral_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (sched : HostSchedule) (a : FVec Ideal ⟨2, ![M, K]⟩ φ₁) (b : FVec Ideal ⟨2, ![K, N]⟩ φ₂)
    (p : Fin M) (q : Fin N) :
    FloatOps.dotGeneral D prec sched a b (ix2 p q) = ∑ k : Fin K, a (ix2 p k) * b (ix2 k q) :=
  ((dotGeneral_apply D prec sched a b (ix2 p q)).trans (matmul_constant_zero_apply D prec a b (ix2 p q)).symm).trans
    (matmul_rows_cols D hlb hln hlc hrb hrn hrc prec a b p q)

end Idealize.ShloMosaic.Ideal

end
-- ==== Proof.Bridge.lean ====
/-
  The kernel's network and the reference's are one function of the arguments.

  Stage by stage. The edge indices, the factors and the aggregations are the same operations in both programs. A dense
  region's rows times columns is the host's matrix product: at the ideal values both are, at entry (r, q), the sum over
  k of left[r, k] · right[k, q]. A bias region's row-add reads the bias, laid out by a reshape as a [1, n] row, at (0, q);
  the reference lays the bias out by a broadcast to [1, n] and broadcasts that row down the rows: at entry (r, q) both read
  the bias at q. The maximum with zero is the maximum with the same zero word on both sides. No law of the extended reals
  beyond these readings is needed: the two programs add and multiply the same numbers in the same arrangement.
-/
import proofs.«113409_j84954453115003_1_alg».proof.Proof.KernelValue
import proofs.«113409_j84954453115003_1_alg».proof.Proof.RefValue
import proofs.«113409_j84954453115003_1_alg».proof.Proof.LibDotGeneralEntry
import Idealize.ShloMosaic.Lib.Pipeline.Value
import Idealize.ShloMosaic.Lib.ValueLayout

noncomputable section

namespace Cert.Bridge

open Idealize.ShloMosaic Idealize.ShloMosaic.TcCoe Idealize.ShloMosaic.ValueIdx
open scoped BigOperators

/-! ## The shared stages are the same operations -/

theorem rowIdx_eq : Cert.KernelIdeal.Stages.rowIdx = Cert.ReferenceIdeal.Stages.rowIdx := rfl
theorem colIdx_eq : Cert.KernelIdeal.Stages.colIdx = Cert.ReferenceIdeal.Stages.colIdx := rfl
theorem edgeW_eq : Cert.KernelIdeal.Stages.edgeW (F := Ideal) = Cert.ReferenceIdeal.Stages.edgeW (F := Ideal) := rfl
theorem degree_eq : Cert.KernelIdeal.Stages.degree (F := Ideal) = Cert.ReferenceIdeal.Stages.degree (F := Ideal) := rfl
theorem invSqrtDeg_eq : Cert.KernelIdeal.Stages.invSqrtDeg (F := Ideal) = Cert.ReferenceIdeal.Stages.invSqrtDeg (F := Ideal) := rfl
theorem edgeNorm_eq : Cert.KernelIdeal.Stages.edgeNorm (F := Ideal) = Cert.ReferenceIdeal.Stages.edgeNorm (F := Ideal) := rfl
theorem aggregate128_eq : Cert.KernelIdeal.Stages.aggregate128 (F := Ideal) = Cert.ReferenceIdeal.Stages.aggregate128 (F := Ideal) := rfl
theorem aggregate64_eq : Cert.KernelIdeal.Stages.aggregate64 (F := Ideal) = Cert.ReferenceIdeal.Stages.aggregate64 (F := Ideal) := rfl

/-! ## A dense region is the host's matrix product -/

theorem dense1_eq (X : FVec Ideal ⟨2, ![100000, 128]⟩ .f32) (Wt : FVec Ideal ⟨2, ![128, 128]⟩ .f32) :
    Cert.KernelIdeal.Region0.rowsTimesCols X Wt = Cert.ReferenceIdeal.Net.dense128 (F := Ideal) X Wt := by
  funext i
  obtain ⟨r, q, rfl⟩ : ∃ (r : Fin 100000) (q : Fin 128), i = ix2 r q := ⟨i 0, i 1, eq_ix2 i⟩
  exact (Ideal.dotGeneral_rows_cols Cert.ReferenceIdeal.dot_S100000x128_S128x128_S100000x128_1_0_0_1_n_n rfl rfl rfl rfl rfl rfl none .single X Wt r q).symm

theorem dense2_eq (X : FVec Ideal ⟨2, ![100000, 128]⟩ .f32) (Wt : FVec Ideal ⟨2, ![128, 128]⟩ .f32) :
    Cert.KernelIdeal.Region2.rowsTimesCols X Wt = Cert.ReferenceIdeal.Net.dense128 (F := Ideal) X Wt := by
  funext i
  obtain ⟨r, q, rfl⟩ : ∃ (r : Fin 100000) (q : Fin 128), i = ix2 r q := ⟨i 0, i 1, eq_ix2 i⟩
  exact (Ideal.dotGeneral_rows_cols Cert.ReferenceIdeal.dot_S100000x128_S128x128_S100000x128_1_0_0_1_n_n rfl rfl rfl rfl rfl rfl none .single X Wt r q).symm

theorem dense3_eq (X : FVec Ideal ⟨2, ![100000, 128]⟩ .f32) (Wt : FVec Ideal ⟨2, ![128, 64]⟩ .f32) :
    Cert.KernelIdeal.Region4.rowsTimesCols X Wt = Cert.ReferenceIdeal.Net.dense64 (F := Ideal) X Wt := by
  funext i
  obtain ⟨r, q, rfl⟩ : ∃ (r : Fin 100000) (q : Fin 64), i = ix2 r q := ⟨i 0, i 1, eq_ix2 i⟩
  exact (Ideal.dotGeneral_rows_cols Cert.ReferenceIdeal.dot_S100000x128_S128x64_S100000x64_1_0_0_1_n_n rfl rfl rfl rfl rfl rfl none .single X Wt r q).symm

/-! ## A bias region is the reference's broadcast-and-add -/

/-- A vector laid out as a [1, n] row by a broadcast, then that row broadcast down m rows, read at (r, q): the vector at q. -/
theorem row_down_apply {mm n : Nat} (b : (⟨1, ![n]⟩ : Shape).Idx → EReal)
    (h1 : (⟨1, ![n]⟩ : Shape).BroadcastsInDim ⟨2, ![1, n]⟩ ![1]) (h2 : (⟨2, ![1, n]⟩ : Shape).BroadcastsInDim ⟨2, ![mm, n]⟩ ![0, 1])
    (r : Fin mm) (q : Fin n) :
    broadcastInDim ⟨2, ![mm, n]⟩ ![0, 1] h2 (broadcastInDim ⟨2, ![1, n]⟩ ![1] h1 b) (ix2 r q) = b (ix1 q) := by
  rw [broadcastInDim_apply ![0, 1] h2 _ (ix2 r q) (ix2 (0 : Fin 1) q) (fun a => by
    match a with
    | ⟨0, _⟩ => rfl
    | ⟨1, _⟩ =>
      show q.val = if n = 1 then 0 else q.val
      split
      · have := q.isLt; omega
      · rfl)]
  exact broadcastInDim_apply ![1] h1 b (ix2 (0 : Fin 1) q) (ix1 q) (fun a => by
    match a with
    | ⟨0, _⟩ =>
      show q.val = if n = 1 then 0 else q.val
      split
      · have := q.isLt; omega
      · rfl)

/-- A scalar broadcast to any shape, read anywhere, is the scalar. -/
theorem scalar_bcast_apply {t : Shape} (x : (⟨0, ![]⟩ : Shape).Idx → EReal) (h : (⟨0, ![]⟩ : Shape).BroadcastsInDim t ![]) (j : t.Idx) :
    broadcastInDim t ![] h x j = x ix0 :=
  broadcastInDim_apply ![] h x j ix0 (fun a => a.elim0)

theorem act1_eq (A : FVec Ideal ⟨2, ![100000, 128]⟩ .f32) (b : FVec Ideal ⟨1, ![128]⟩ .f32)
    (h : (⟨1, ![128]⟩ : Shape).ShapeCasts ⟨2, ![1, 128]⟩) :
    Cert.KernelIdeal.Region1.addRow A (shapeCast ⟨2, ![1, 128]⟩ b h) = Cert.ReferenceIdeal.Net.biasRelu (F := Ideal) A b := by
  funext i
  obtain ⟨r, q, rfl⟩ : ∃ (r : Fin 100000) (q : Fin 128), i = ix2 r q := ⟨i 0, i 1, eq_ix2 i⟩
  unfold Cert.KernelIdeal.Region1.addRow Cert.ReferenceIdeal.Net.biasRelu
  rw [maximumf_apply, addf_apply, row_down_apply, scalar_bcast_apply]
  show max (A (ix2 r q) + shapeCast ⟨2, ![1, 128]⟩ b h (ix2 (0 : Fin 1) q)) _ = _
  rw [shapeCast_a_1a_apply]
  rfl

theorem act2_eq (A : FVec Ideal ⟨2, ![100000, 128]⟩ .f32) (b : FVec Ideal ⟨1, ![128]⟩ .f32)
    (h : (⟨1, ![128]⟩ : Shape).ShapeCasts ⟨2, ![1, 128]⟩) :
    Cert.KernelIdeal.Region3.addRow A (shapeCast ⟨2, ![1, 128]⟩ b h) = Cert.ReferenceIdeal.Net.biasRelu (F := Ideal) A b := by
  funext i
  obtain ⟨r, q, rfl⟩ : ∃ (r : Fin 100000) (q : Fin 128), i = ix2 r q := ⟨i 0, i 1, eq_ix2 i⟩
  unfold Cert.KernelIdeal.Region3.addRow Cert.ReferenceIdeal.Net.biasRelu
  rw [maximumf_apply, addf_apply, row_down_apply, scalar_bcast_apply]
  show max (A (ix2 r q) + shapeCast ⟨2, ![1, 128]⟩ b h (ix2 (0 : Fin 1) q)) _ = _
  rw [shapeCast_a_1a_apply]
  rfl

theorem out3_eq (A : FVec Ideal ⟨2, ![100000, 64]⟩ .f32) (b : FVec Ideal ⟨1, ![64]⟩ .f32)
    (h : (⟨1, ![64]⟩ : Shape).ShapeCasts ⟨2, ![1, 64]⟩) :
    Cert.KernelIdeal.Region5.addRow A (shapeCast ⟨2, ![1, 64]⟩ b h) = Cert.ReferenceIdeal.Net.bias64 (F := Ideal) A b := by
  funext i
  obtain ⟨r, q, rfl⟩ : ∃ (r : Fin 100000) (q : Fin 64), i = ix2 r q := ⟨i 0, i 1, eq_ix2 i⟩
  unfold Cert.KernelIdeal.Region5.addRow Cert.ReferenceIdeal.Net.bias64
  rw [addf_apply, row_down_apply]
  show A (ix2 r q) + shapeCast ⟨2, ![1, 64]⟩ b h (ix2 (0 : Fin 1) q) = _
  rw [shapeCast_a_1a_apply]

/-! ## The two networks -/

/-- The kernel's three layers over the kernel's indices and factors are the reference's network, of the same arguments. -/
theorem net_eq (x : FVec Ideal ⟨2, ![100000, 128]⟩ .f32) (ei : IVec ⟨2, ![2, 1600000]⟩ 32) (ew : FVec Ideal ⟨1, ![1600000]⟩ .f32)
    (W1 : FVec Ideal ⟨2, ![128, 128]⟩ .f32) (b1 : FVec Ideal ⟨1, ![128]⟩ .f32) (W2 : FVec Ideal ⟨2, ![128, 128]⟩ .f32)
    (b2 : FVec Ideal ⟨1, ![128]⟩ .f32) (W3 : FVec Ideal ⟨2, ![128, 64]⟩ .f32) (b3 : FVec Ideal ⟨1, ![64]⟩ .f32) :
    Cert.KernelIdeal.NetValue.layers (Cert.KernelIdeal.Stages.rowIdx ei) (Cert.KernelIdeal.Stages.colIdx ei)
        (Cert.KernelIdeal.Stages.edgeNorm (Cert.KernelIdeal.Stages.invSqrtDeg (Cert.KernelIdeal.Stages.degree
          (Cert.KernelIdeal.Stages.colIdx ei) (Cert.KernelIdeal.Stages.edgeW ew))) (Cert.KernelIdeal.Stages.rowIdx ei)
          (Cert.KernelIdeal.Stages.colIdx ei) (Cert.KernelIdeal.Stages.edgeW ew)) x W1 b1 W2 b2 W3 b3
      = Cert.ReferenceIdeal.Net.net x ei ew W1 b1 W2 b2 W3 b3 := by
  unfold Cert.KernelIdeal.NetValue.layers Cert.ReferenceIdeal.Net.net Cert.ReferenceIdeal.Net.layers
  rw [dense1_eq, act1_eq, dense2_eq, act2_eq, dense3_eq, out3_eq]
  rw [rowIdx_eq, colIdx_eq, edgeW_eq, degree_eq, invSqrtDeg_eq, edgeNorm_eq, aggregate128_eq, aggregate64_eq]

end Cert.Bridge

end
-- ==== Proof.lean ====
/-
  A three-layer graph convolution: the Pallas kernel against its jnp reference, over the extended reals.

  Both programs compute, from the edge list and the edge weights, the edges' source and target indices with one
  self-loop per node appended and each edge's normalising factor (the inverse square roots of the two end nodes' weighted
  in-degrees times the edge's weight); then three layers, each a dense product of the node features with a weight
  matrix, an aggregation of the product's rows over the edges (gather at the sources, scale by the factors, scatter-add
  at the targets) and a bias row added, the first two followed by the maximum with zero.

  The reference does all of it in host operations. The kernel does the dense products and the bias-and-maximum steps in
  six pipelined regions, each tiled into twenty blocks of 5000 rows, with the products' operands cast to bf16 and
  accumulated in f32, and everything else in the same host operations as the reference. At the ideal values a change of
  float format is the identity, a matrix product into a zero accumulator is the plain sum over the contracted axis, and
  a row of a product or of a bias-add depends only on the same row of its operand, so tiling by rows changes nothing:
  each region leaves in its result array one whole-array function of its operand arrays, which is the reference's host
  operation index by index. The remaining host operations are the same terms in both programs. So the two results are
  one function of the arguments; no algebraic law that could fail at an infinity is used, and the finiteness of the
  inputs is never opened.

  The kernel's idealization rewrote no operation, so there is nothing to preserve beyond the program's own text. The
  two kernel programs' frames are the generated ones; the reference's frame is its generated run with the result
  dropped.
-/
import proofs.«113409_j84954453115003_1_alg».proof.Defs
import proofs.«113409_j84954453115003_1_alg».proof.Proof.Gen.Kernel
import proofs.«113409_j84954453115003_1_alg».proof.Proof.Gen.Kernel.Frame
import proofs.«113409_j84954453115003_1_alg».proof.Proof.Gen.KernelIdeal
import proofs.«113409_j84954453115003_1_alg».proof.Proof.Gen.KernelIdeal.Frame
import proofs.«113409_j84954453115003_1_alg».proof.Proof.Gen.ReferenceIdeal
import proofs.«113409_j84954453115003_1_alg».proof.Proof.Gen.ReferenceIdeal.Run
import proofs.«113409_j84954453115003_1_alg».proof.Proof.Gen.Pre_finite_inputs
import proofs.«113409_j84954453115003_1_alg».proof.Proof.KernelRun
import proofs.«113409_j84954453115003_1_alg».proof.Proof.KernelValue
import proofs.«113409_j84954453115003_1_alg».proof.Proof.RefValue
import proofs.«113409_j84954453115003_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs run; the kernel's result array ends at the three layers over the indices and factors of its launch
    arguments, the reference's at the network of its own; the arguments agree, and the two are one function. -/
theorem algebraic : Cert.algebraic_KernelIdeal_ReferenceIdeal := by
  intro m ρ m' ρ' _ hagree
  refine ⟨fun c => Cert.KernelIdeal.Gen.W14 m ρ c (Proc.devRef .tc Cert.KernelIdeal.main_v82),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  show Cert.ReferenceIdeal.Value.res_main_v87 m' c
    = Cert.KernelIdeal.Gen.W14 m ρ c (Proc.devRef .tc Cert.KernelIdeal.main_v82)
  rw [Cert.ReferenceIdeal.Net.result_eq, Cert.KernelIdeal.NetValue.result_value, Cert.Bridge.net_eq,
    a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
